-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S10000x64 : Shape := ⟨2, ![10000, 64]⟩
abbrev S1250000x64 : Shape := ⟨2, ![1250000, 64]⟩
abbrev S10000x1 : Shape := ⟨2, ![10000, 1]⟩
abbrev S1x64 : Shape := ⟨2, ![1, 64]⟩

abbrev nBuf : Space → Nat
  | .hbm => 99
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000, .f32⟩
  | .hbm, ⟨43, _⟩ => ⟨S_, .i32⟩
  | .hbm, ⟨44, _⟩ => ⟨S1250000, .i32⟩
  | .hbm, ⟨45, _⟩ => ⟨S1250000, .i1⟩
  | .hbm, ⟨46, _⟩ => ⟨S_, .i32⟩
  | .hbm, ⟨47, _⟩ => ⟨S1250000, .i32⟩
  | .hbm, ⟨48, _⟩ => ⟨S1250000, .i32⟩
  | .hbm, ⟨49, _⟩ => ⟨S1250000, .i32⟩
  | .hbm, ⟨50, _⟩ => ⟨S1250000x1, .i32⟩
  | .hbm, ⟨51, _⟩ => ⟨S1250000, .f32⟩
  | .hbm, ⟨52, _⟩ => ⟨S1250000, .f32⟩
  | .hbm, ⟨53, _⟩ => ⟨S1250000x1, .f32⟩
  | .hbm, ⟨54, _⟩ => ⟨S1250000x64, .f32⟩
  | .hbm, ⟨55, _⟩ => ⟨S1250000x64, .f32⟩
  | .hbm, ⟨56, _⟩ => ⟨S_, .f32⟩
  | .hbm, ⟨57, _⟩ => ⟨S100000x64, .f32⟩
  | .hbm, ⟨58, _⟩ => ⟨S1250000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S_, .i32⟩
  | .hbm, ⟨72, _⟩ => ⟨S1250000, .i32⟩
  | .hbm, ⟨73, _⟩ => ⟨S1250000, .i1⟩
  | .hbm, ⟨74, _⟩ => ⟨S_, .i32⟩
  | .hbm, ⟨75, _⟩ => ⟨S1250000, .i32⟩
  | .hbm, ⟨76, _⟩ => ⟨S1250000, .i32⟩
  | .hbm, ⟨77, _⟩ => ⟨S1250000, .i32⟩
  | .hbm, ⟨78, _⟩ => ⟨S1250000x1, .i32⟩
  | .hbm, ⟨79, _⟩ => ⟨S1250000, .f32⟩
  | .hbm, ⟨80, _⟩ => ⟨S_, .i32⟩
  | .hbm, ⟨81, _⟩ => ⟨S1250000, .i32⟩
  | .hbm, ⟨82, _⟩ => ⟨S1250000, .i1⟩
  | .hbm, ⟨83, _⟩ => ⟨S_, .i32⟩
  | .hbm, ⟨84, _⟩ => ⟨S1250000, .i32⟩
  | .hbm, ⟨85, _⟩ => ⟨S1250000, .i32⟩
  | .hbm, ⟨86, _⟩ => ⟨S1250000, .i32⟩
  | .hbm, ⟨87, _⟩ => ⟨S1250000x1, .i32⟩
  | .hbm, ⟨88, _⟩ => ⟨S1250000, .f32⟩
  | .hbm, ⟨89, _⟩ => ⟨S1250000, .f32⟩
  | .hbm, ⟨90, _⟩ => ⟨S1250000x1, .f32⟩
  | .hbm, ⟨91, _⟩ => ⟨S1250000x64, .f32⟩
  | .hbm, ⟨92, _⟩ => ⟨S1250000x64, .f32⟩
  | .hbm, ⟨93, _⟩ => ⟨S_, .f32⟩
  | .hbm, ⟨94, _⟩ => ⟨S100000x64, .f32⟩
  | .hbm, ⟨95, _⟩ => ⟨S1250000x1, .i32⟩
  | .hbm, ⟨96, _⟩ => ⟨S100000x64, .f32⟩
  | .hbm, ⟨97, _⟩ => ⟨S100000x64, .f32⟩
  | .hbm, ⟨98, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64, .f32⟩
  | .local _ .vmem, ⟨32, _⟩ => ⟨S10000x64, .f32⟩
  | .local _ .vmem, ⟨33, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S_, .i32⟩
  | .hbm, ⟨24, _⟩ => ⟨S1250000, .i32⟩
  | .hbm, ⟨25, _⟩ => ⟨S1250000, .i1⟩
  | .hbm, ⟨26, _⟩ => ⟨S_, .i32⟩
  | .hbm, ⟨27, _⟩ => ⟨S1250000, .i32⟩
  | .hbm, ⟨28, _⟩ => ⟨S1250000, .i32⟩
  | .hbm, ⟨29, _⟩ => ⟨S1250000, .i32⟩
  | .hbm, ⟨30, _⟩ => ⟨S1250000x1, .i32⟩
  | .hbm, ⟨31, _⟩ => ⟨S1250000, .f32⟩
  | .hbm, ⟨32, _⟩ => ⟨S_, .i32⟩
  | .hbm, ⟨33, _⟩ => ⟨S1250000, .i32⟩
  | .hbm, ⟨34, _⟩ => ⟨S1250000, .i1⟩
  | .hbm, ⟨35, _⟩ => ⟨S_, .i32⟩
  | .hbm, ⟨36, _⟩ => ⟨S1250000, .i32⟩
  | .hbm, ⟨37, _⟩ => ⟨S1250000, .i32⟩
  | .hbm, ⟨38, _⟩ => ⟨S1250000, .i32⟩
  | .hbm, ⟨39, _⟩ => ⟨S1250000x1, .i32⟩
  | .hbm, ⟨40, _⟩ => ⟨S1250000, .f32⟩
  | .hbm, ⟨41, _⟩ => ⟨S1250000, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S1250000x1, .f32⟩
  | .hbm, ⟨52, _⟩ => ⟨S1250000x64, .f32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1250000, .i32⟩
  | .hbm, ⟨72, _⟩ => ⟨S1250000, .i1⟩
  | .hbm, ⟨73, _⟩ => ⟨S_, .i32⟩
  | .hbm, ⟨74, _⟩ => ⟨S1250000, .i32⟩
  | .hbm, ⟨75, _⟩ => ⟨S1250000, .i32⟩
  | .hbm, ⟨76, _⟩ => ⟨S1250000, .i32⟩
  | .hbm, ⟨77, _⟩ => ⟨S1250000x1, .i32⟩
  | .hbm, ⟨78, _⟩ => ⟨S1250000, .f32⟩
  | .hbm, ⟨79, _⟩ => ⟨S_, .i32⟩
  | .hbm, ⟨80, _⟩ => ⟨S1250000, .i32⟩
  | .hbm, ⟨81, _⟩ => ⟨S1250000, .i1⟩
  | .hbm, ⟨82, _⟩ => ⟨S_, .i32⟩
  | .hbm, ⟨83, _⟩ => ⟨S1250000, .i32⟩
  | .hbm, ⟨84, _⟩ => ⟨S1250000, .i32⟩
  | .hbm, ⟨85, _⟩ => ⟨S1250000, .i32⟩
  | .hbm, ⟨86, _⟩ => ⟨S1250000x1, .i32⟩
  | .hbm, ⟨87, _⟩ => ⟨S1250000, .f32⟩
  | .hbm, ⟨88, _⟩ => ⟨S1250000, .f32⟩
  | .hbm, ⟨89, _⟩ => ⟨S_, .i32⟩
  | .hbm, ⟨90, _⟩ => ⟨S1250000, .i32⟩
  | .hbm, ⟨91, _⟩ => ⟨S1250000, .i1⟩
  | .hbm, ⟨92, _⟩ => ⟨S_, .i32⟩
  | .hbm, ⟨93, _⟩ => ⟨S1250000, .i32⟩
  | .hbm, ⟨94, _⟩ => ⟨S1250000, .i32⟩
  | .hbm, ⟨95, _⟩ => ⟨S1250000, .i32⟩
  | .hbm, ⟨96, _⟩ => ⟨S1250000x1, .i32⟩
  | .hbm, ⟨97, _⟩ => ⟨S1250000x64, .f32⟩
  | .hbm, ⟨98, _⟩ => ⟨S1250000x1, .f32⟩
  | .hbm, ⟨99, _⟩ => ⟨S1250000x64, .f32⟩
  | .hbm, ⟨100, _⟩ => ⟨S1250000x64, .f32⟩
  | .hbm, ⟨101, _⟩ => ⟨S_, .f32⟩
  | .hbm, ⟨102, _⟩ => ⟨S100000x64, .f32⟩
  | .hbm, ⟨103, _⟩ => ⟨S1250000x1, .i32⟩
  | .hbm, ⟨104, _⟩ => ⟨S100000x64, .f32⟩
  | .hbm, ⟨105, _⟩ => ⟨S100000, .f32⟩
  | .hbm, ⟨106, _⟩ => ⟨S100000x1, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelRun.lean ====
/-
  The kernel program's run with its RESULT named: every weakly fair execution terminates without a fault, and the
  final state has every unscoped buffer at the contents the last segment leaves — in particular the result buffer at
  the last region's output array, and the eight argument arrays as launched.  The program is run as its eight
  segments in order (three stretches of host operations, five regions), each from the contents its predecessor
  leaves; the final state is then read at the result buffer as well as at the arguments.
-/
import proofs.«152866_j45277545234577_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents of it, the arguments as launched. -/
theorem run : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.HostParts.lean ====
/-
  The host operations between the regions, as pure functions.  From the edge list ei : [2, 1250000]:
    sources / targets  = its two rows;
    invDeg             = 1 / sqrt (1 + number of edges into each node)   (a scatter-add of ones, plus one, rsqrt);
    wrap s             = the index column of s, a negative entry moved up by 100000 (array indexing's wrap-around);
    aggregate m        = for every edge (s → t), add  m[s, :] · invDeg[s] · invDeg[t]  into row t of a zero array
                         (gather rows, gather the two weights, multiply, scatter-add).
  Then the three stretches of host operations of the kernel program read at the buffers the regions consume, for
  ANY contents W of the buffers on entry.
-/
import proofs.«152866_j45277545234577_1_alg».proof.Proof.Gen.KernelIdeal.Launch
import Idealize.ShloMosaic.Lib.StableHlo.Run
import Idealize.ShloMosaic.PureOps.Ideal

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

/-- The edges' sources: row 0 of the edge list. -/
def sources (ei : IVec S2x1250000 32) : IVec S1250000 32 :=
  shapeCast S1250000 (extractStridedSlice S1x1250000 ![0, 0] ei slices_S2x1250000_S1x1250000_0_0) shapeCasts_S1x1250000_S1250000

/-- The edges' targets: row 1 of the edge list. -/
def targets (ei : IVec S2x1250000 32) : IVec S1250000 32 :=
  shapeCast S1250000 (extractStridedSlice S1x1250000 ![1, 0] ei slices_S2x1250000_S1x1250000_1_0) shapeCasts_S1x1250000_S1250000

/-- 1 / sqrt (1 + in-degree) per node. -/
def invDeg (ei : IVec S2x1250000 32) : FVec Ideal S100000 .f32 :=
  Host.rsqrt (F := Ideal)
    (addf
      (Host.scatterAdd (F := Ideal) scatter_S100000_S1250000x1_S1250000_n_0_0_1
        (broadcastInDim S100000 ![] bcast_S_S100000 (constant (F := Ideal) S_ .f32 0x00000000#32))
        (broadcastInDim S1250000x1 ![0] bcast_S1250000_S1250000x1_0 (targets ei))
        (broadcastInDim S1250000 ![] bcast_S_S1250000 (constant (F := Ideal) S_ .f32 0x3F800000#32)))
      (broadcastInDim S100000 ![] bcast_S_S100000 (constant (F := Ideal) S_ .f32 0x3F800000#32)))

/-- An index vector as a column, negative entries wrapped around by 100000. -/
def wrap (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 100000#32))) s)

/-- The neighbourhood aggregate of projected features mm with symmetric normalisation. -/
def aggregate (src dst : IVec S1250000 32) (inv : FVec Ideal S100000 .f32) (mm : FVec Ideal S100000x64 .f32) :
    FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (mulf (Host.gather gather_S100000x64_S1250000x1_S1250000x64_1_0_n_n_0_1_164 mm (wrap src))
      (broadcastInDim S1250000x64 ![0, 1] bcast_S1250000x1_S1250000x64_0_1
        (broadcastInDim S1250000x1 ![0] bcast_S1250000_S1250000x1_0
          (mulf (Host.gather gather_S100000_S1250000x1_S1250000_n_0_n_n_0_1_1 inv (wrap src))
            (Host.gather gather_S100000_S1250000x1_S1250000_n_0_n_n_0_1_1 inv (wrap dst))))))

/-- The per-node self-loop weight invDeg², laid as a column. -/
def selfCol (ei : IVec S2x1250000 32) : FVec Ideal S100000x1 .f32 :=
  shapeCast S100000x1 (mulf (invDeg ei) (invDeg ei)) shapeCasts_S100000_S100000x1

variable (W : Valuation τ sig (Elt Ideal))

/-! ## The first stretch: edge endpoints, degrees, the self-loop column -/

theorem pre_sources : StableHlo.after (hostOps0 (F := Ideal)) W (Proc.devRef .tc main_v1) = sources (W (Proc.devRef .tc main_arg1)) := by
  after_results; rfl
theorem pre_targets : StableHlo.after (hostOps0 (F := Ideal)) W (Proc.devRef .tc main_v3) = targets (W (Proc.devRef .tc main_arg1)) := by
  after_results; rfl
theorem pre_invDeg : StableHlo.after (hostOps0 (F := Ideal)) W (Proc.devRef .tc main_v10) = invDeg (W (Proc.devRef .tc main_arg1)) := by
  after_results; rfl
theorem pre_selfCol : StableHlo.after (hostOps0 (F := Ideal)) W (Proc.devRef .tc main_v12) = selfCol (W (Proc.devRef .tc main_arg1)) := by
  after_results; rfl

/-! ## The second and third stretches: the aggregation of a region's projected features -/

theorem mid_aggregate1 : StableHlo.after (hostOps1 (F := Ideal)) W (Proc.devRef .tc main_v41)
    = aggregate (W (Proc.devRef .tc main_v1)) (W (Proc.devRef .tc main_v3)) (W (Proc.devRef .tc main_v10)) (W (Proc.devRef .tc main_v13)) := by
  after_results_simp; rfl
theorem mid_aggregate3 : StableHlo.after (hostOps3 (F := Ideal)) W (Proc.devRef .tc main_v71)
    = aggregate (W (Proc.devRef .tc main_v1)) (W (Proc.devRef .tc main_v3)) (W (Proc.devRef .tc main_v10)) (W (Proc.devRef .tc main_v43)) := by
  after_results_simp; rfl

end Cert.KernelIdeal.Whole

end
-- ==== Proof.GcnSpec.lean ====
/-
  A two-layer graph convolution followed by a linear head, as three whole-array functions over the
  extended reals, index by index.  For node features h : [100000, 64] and a weight W : [64, 64]:

    proj h W (r, q)        = Σ_k h(r, k) · W(k, q)                       (the projection h·W)
    conv a m s b (r, q)    = max (a(r, q) + m(r, q) · s(r) + b(q)) 0      (aggregate + self loop + bias, then relu)
    head h W b (r, q)      = Σ_k h(r, k) · W(k, q) + b(q)                 (the linear head)

  where a is the neighbourhood aggregate, m the projected features, s the per-node self-loop weight
  (1 / degree) and b a bias row.  convCol is conv with the per-node weight carried as a [100000, 1] column.
  No finiteness is used anywhere: both programs apply these same operations in the same order.
-/
import Idealize.ShloMosaic.PureOps.Ideal
import Idealize.ShloMosaic.Lib.ValueIdx

noncomputable section

namespace Cert.Gcn

open Idealize.ShloMosaic Idealize.ShloMosaic.ValueIdx
open scoped BigOperators

/-- Node features: 100000 nodes, 64 channels. -/
abbrev Feat : Shape := ⟨2, ![100000, 64]⟩
/-- A weight matrix, 64 by 64. -/
abbrev Wgt : Shape := ⟨2, ![64, 64]⟩
/-- One number per node, as a vector. -/
abbrev PerNode : Shape := ⟨1, ![100000]⟩
/-- One number per node, as a column. -/
abbrev NodeCol : Shape := ⟨2, ![100000, 1]⟩
/-- A bias row, one number per channel. -/
abbrev Chan : Shape := ⟨1, ![64]⟩

/-- The projection h·W: entry (r, q) is the sum over k of h(r, k)·W(k, q). -/
def proj (h : FVec Ideal Feat .f32) (w : FVec Ideal Wgt .f32) : FVec Ideal Feat .f32 :=
  fun i => ∑ k : Fin 64, h (ix2 (i 0) k) * w (ix2 k (i 1))

/-- One convolution's epilogue: aggregate plus the self-loop term plus the bias, then relu. -/
def conv (a m : FVec Ideal Feat .f32) (s : FVec Ideal PerNode .f32) (b : FVec Ideal Chan .f32) : FVec Ideal Feat .f32 :=
  fun i => max (a i + m i * s (ix1 (i 0)) + b (ix1 (i 1))) (Ideal.ofBits .f32 0x00000000#32)

/-- The same with the per-node weight laid as a column [100000, 1]. -/
def convCol (a m : FVec Ideal Feat .f32) (s : FVec Ideal NodeCol .f32) (b : FVec Ideal Chan .f32) : FVec Ideal Feat .f32 :=
  fun i => max (a i + m i * s (ix2 (i 0) (0 : Fin 1)) + b (ix1 (i 1))) (Ideal.ofBits .f32 0x00000000#32)

/-- The linear head: h·W plus the bias row. -/
def head (h : FVec Ideal Feat .f32) (w : FVec Ideal Wgt .f32) (b : FVec Ideal Chan .f32) : FVec Ideal Feat .f32 :=
  fun i => (∑ k : Fin 64, h (ix2 (i 0) k) * w (ix2 k (i 1))) + b (ix1 (i 1))

theorem proj_apply (h : FVec Ideal Feat .f32) (w : FVec Ideal Wgt .f32) (r : Fin 100000) (q : Fin 64) :
    proj h w (ix2 r q) = ∑ k : Fin 64, h (ix2 r k) * w (ix2 k q) := rfl

theorem convCol_apply (a m : FVec Ideal Feat .f32) (s : FVec Ideal NodeCol .f32) (b : FVec Ideal Chan .f32)
    (r : Fin 100000) (q : Fin 64) :
    convCol a m s b (ix2 r q) = max (a (ix2 r q) + m (ix2 r q) * s (ix2 r (0 : Fin 1)) + b (ix1 q)) (Ideal.ofBits .f32 0x00000000#32) := rfl

theorem conv_apply (a m : FVec Ideal Feat .f32) (s : FVec Ideal PerNode .f32) (b : FVec Ideal Chan .f32)
    (r : Fin 100000) (q : Fin 64) :
    conv a m s b (ix2 r q) = max (a (ix2 r q) + m (ix2 r q) * s (ix1 r) + b (ix1 q)) (Ideal.ofBits .f32 0x00000000#32) := rfl

theorem head_apply (h : FVec Ideal Feat .f32) (w : FVec Ideal Wgt .f32) (b : FVec Ideal Chan .f32) (r : Fin 100000) (q : Fin 64) :
    head h w b (ix2 r q) = (∑ k : Fin 64, h (ix2 r k) * w (ix2 k q)) + b (ix1 q) := rfl

/-- A column that is a vector reshaped gives the same convolution epilogue. -/
theorem convCol_of_column (a m : FVec Ideal Feat .f32) (v : FVec Ideal PerNode .f32) (s : FVec Ideal NodeCol .f32)
    (b : FVec Ideal Chan .f32) (hs : ∀ r : Fin 100000, s (ix2 r (0 : Fin 1)) = v (ix1 r)) :
    convCol a m s b = conv a m v b := by
  funext i
  show max (a i + m i * s (ix2 (i 0) (0 : Fin 1)) + b (ix1 (i 1))) _ = max (a i + m i * v (ix1 (i 0)) + b (ix1 (i 1))) _
  have e : s (ix2 (i 0) (0 : Fin 1)) = v (ix1 (i 0)) := hs (i 0)
  rw [e]

end Cert.Gcn

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibSpread.lean ====
/-
  A vector spread over a matrix, read at an index.

  The layout chains by which a kernel body turns a vector into a matrix operand, each read at `(p, q)` as one entry of the
  vector. A vector of `a` entries laid as a column and repeated along `b` columns reads its entry `p`; a vector of `b`
  entries laid as a row and repeated down `a` rows reads its entry `q`; with row `l` of a stacked array as the vector, these
  are the two factors of an outer product of row `l` of one array with row `l` of another. Also a vector with two leading
  unit axes, `[1, 1, a]`, against the plain vector `[a]`, in both directions. Each is stated over any element type and
  over literal coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-- A vector laid as a column and repeated along `b` columns reads, at `(p, q)`, its entry `p`. -/
theorem column_spread_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      rw [Nat.mul_one, Nat.add_zero])

/-- A vector laid as a row and repeated down `a` rows reads, at `(p, q)`, its entry `q`. -/
theorem row_spread_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc (0 : Fin 1) q)

/-- Row `l` of a matrix as a vector: entry `n` is the matrix's `(l, n)`. -/
theorem rowOf_apply {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- Row `l` of a stacked array spread as a column over `b` columns: at `(p, q)` the array's `(l, p)`. -/
theorem rowAsColumn_apply {n0 a b l : ℕ} (hl : l < n0) (X : (⟨2, ![n0, a]⟩ : Shape).Idx → α)
    (hs : (⟨2, ![n0, a]⟩ : Shape).Slices ![l, 0] ⟨2, ![1, a]⟩) (hc1 : (⟨2, ![1, a]⟩ : Shape).ShapeCasts ⟨1, ![a]⟩)
    (hc2 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (shapeCast ⟨1, ![a]⟩ (extractStridedSlice ⟨2, ![1, a]⟩ ![l, 0] X hs) hc1) hc2) hb
        (ix2 p q) = X (ix2 (⟨l, hl⟩ : Fin n0) p) :=
  (column_spread_apply _ hc2 hb p q).trans (rowOf_apply hl X hs hc1 p)

/-- Row `l` of a stacked array spread as a row down `a` rows: at `(p, q)` the array's `(l, q)`. -/
theorem rowAsRow_apply {n0 a b l : ℕ} (hl : l < n0) (X : (⟨2, ![n0, b]⟩ : Shape).Idx → α)
    (hs : (⟨2, ![n0, b]⟩ : Shape).Slices ![l, 0] ⟨2, ![1, b]⟩) (hc1 : (⟨2, ![1, b]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![1, b]⟩ ![l, 0] X hs) hc1) hc2) hb
        (ix2 p q) = X (ix2 (⟨l, hl⟩ : Fin n0) q) :=
  (row_spread_apply _ hc2 hb p q).trans (rowOf_apply hl X hs hc1 q)

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to `[1, 1, a]` reads, at `(u, u', i)`, the operand at `i`. -/
theorem shapeCast_a_11a_apply {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp [hu, hu'])

end Cert.Lib

end
-- ==== Proof.Payloads.lean ====
/-
  The three kernel bodies' stored values read at an index (r, q) of the 10000-row block, at the ideal
  instance, as functions of the blocks they load:

    the projection body :  Σ_k x(r, k) · w(k, q)                     (a matrix product into a zero accumulator;
                                                                        the narrowing of both operands is the identity)
    the epilogue body   :  max (a(r, q) + m(r, q) · s(r, 0) + b(q)) 0  (the column s spread along the channels,
                                                                        the bias row spread along the rows)
    the head body       :  Σ_k x(r, k) · w(k, q) + b(q)
-/
import proofs.«152866_j45277545234577_1_alg».proof.Proof.Gen.KernelIdeal.Skeleton
import proofs.«152866_j45277545234577_1_alg».proof.Proof.LibMatDot
import proofs.«152866_j45277545234577_1_alg».proof.Proof.LibColumn
import proofs.«152866_j45277545234577_1_alg».proof.Proof.LibSpread
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen
open scoped BigOperators

/-- The printed contraction record is the plain product [a, K] × [K, b] → [a, b]. -/
theorem dot_is_plain :
    dot_S10000x64_S64x64_S10000x64_1_0_0_1_n_n = Cert.Lib.matDot dot_S10000x64_S64x64_S10000x64_1_0_0_1_n_n_wf := rfl

/-- A product of two narrowed blocks into the zero accumulator, at (r, q): the plain sum of products. -/
theorem product_apply (x : Vec Ideal S10000x64 .f32) (w : Vec Ideal S64x64 .f32) (r : Fin 10000) (q : Fin 64) :
    matmul (F := Ideal) dot_S10000x64_S64x64_S10000x64_1_0_0_1_n_n none
        (truncf .bf16 x bitsLt_bf16_f32) (truncf .bf16 w bitsLt_bf16_f32) (constant S10000x64 .f32 0x00000000#32) (ix2 r q)
      = ∑ k : Fin 64, x (ix2 r k) * w (ix2 k q) := by
  rw [dot_is_plain]
  exact Cert.Lib.matmul_plain_zero_apply dot_S10000x64_S64x64_S10000x64_1_0_0_1_n_n_wf none
    (truncf (F := Ideal) .bf16 x bitsLt_bf16_f32) (truncf (F := Ideal) .bf16 w bitsLt_bf16_f32) r q

/-- The first projection's stored value at (r, q). -/
theorem proj0_apply (x : Vec Ideal S10000x64 .f32) (w : Vec Ideal S64x64 .f32) (r : Fin 10000) (q : Fin 64) :
    k0_pay1 (F := Ideal) x w (ix2 r q) = ∑ k : Fin 64, x (ix2 r k) * w (ix2 k q) := by
  unfold k0_pay1
  exact product_apply x w r q

/-- The second projection's stored value at (r, q). -/
theorem proj2_apply (x : Vec Ideal S10000x64 .f32) (w : Vec Ideal S64x64 .f32) (r : Fin 10000) (q : Fin 64) :
    k2_pay1 (F := Ideal) x w (ix2 r q) = ∑ k : Fin 64, x (ix2 r k) * w (ix2 k q) := by
  unfold k2_pay1
  rw [shapeCast_self]
  exact product_apply x w r q

/-- The epilogue's arithmetic on four loaded blocks, at (r, q). -/
theorem epilogue_apply (a m : Vec Ideal S10000x64 .f32) (s : Vec Ideal S10000x1 .f32) (b : Vec Ideal S64 .f32)
    (r : Fin 10000) (q : Fin 64) :
    maximumf (F := Ideal)
        (addf (addf (shapeCast S10000x64 a shapeCasts_S10000x64_S10000x64)
            (mulf (shapeCast S10000x64 m shapeCasts_S10000x64_S10000x64)
              (broadcastTo S10000x64 (shapeCast S10000x1 s shapeCasts_S10000x1_S10000x1) broadcasts_S10000x1_S10000x64)))
          (broadcastTo S10000x64 (shapeCast S1x64 b shapeCasts_S64_S1x64) broadcasts_S1x64_S10000x64))
        (broadcast S10000x64 (Scalar.ofBits (F := Ideal) .f32 0x00000000#32)) (ix2 r q)
      = max (a (ix2 r q) + m (ix2 r q) * s (ix2 r (0 : Fin 1)) + b (ix1 q)) (Ideal.ofBits .f32 0x00000000#32) := by
  rw [shapeCast_self, shapeCast_self, shapeCast_self]
  rw [maximumf_apply, addf_apply, addf_apply, mulf_apply, broadcast_apply]
  rw [Cert.Lib.broadcastTo_a1_ab_apply s broadcasts_S10000x1_S10000x64 r q,
    Cert.Lib.row_spread_apply b shapeCasts_S64_S1x64 broadcasts_S1x64_S10000x64 r q]
  rfl

/-- The first epilogue's stored value at (r, q). -/
theorem conv1_apply (a m : Vec Ideal S10000x64 .f32) (s : Vec Ideal S10000x1 .f32) (b : Vec Ideal S64 .f32)
    (r : Fin 10000) (q : Fin 64) :
    k1_pay1 (F := Ideal) a m s b (ix2 r q)
      = max (a (ix2 r q) + m (ix2 r q) * s (ix2 r (0 : Fin 1)) + b (ix1 q)) (Ideal.ofBits .f32 0x00000000#32) := by
  unfold k1_pay1
  exact epilogue_apply a m s b r q

/-- The second epilogue's stored value at (r, q). -/
theorem conv3_apply (a m : Vec Ideal S10000x64 .f32) (s : Vec Ideal S10000x1 .f32) (b : Vec Ideal S64 .f32)
    (r : Fin 10000) (q : Fin 64) :
    k3_pay1 (F := Ideal) a m s b (ix2 r q)
      = max (a (ix2 r q) + m (ix2 r q) * s (ix2 r (0 : Fin 1)) + b (ix1 q)) (Ideal.ofBits .f32 0x00000000#32) := by
  unfold k3_pay1
  exact epilogue_apply a m s b r q

/-- The head's stored value at (r, q). -/
theorem head4_apply (x : Vec Ideal S10000x64 .f32) (w : Vec Ideal S64x64 .f32) (b : Vec Ideal S64 .f32)
    (r : Fin 10000) (q : Fin 64) :
    k4_pay1 (F := Ideal) x w b (ix2 r q) = (∑ k : Fin 64, x (ix2 r k) * w (ix2 k q)) + b (ix1 q) := by
  unfold k4_pay1
  rw [shapeCast_self]
  rw [addf_apply, Cert.Lib.row_spread_apply b shapeCasts_S64_S1x64 broadcasts_S1x64_S10000x64 r q]
  exact congrArg (· + b (ix1 q)) (product_apply x w r q)

end Cert.KernelIdeal.Body

end
-- ==== Proof.Region0.lean ====
/-
  Region 0 of the kernel program, as a whole-array function of the arrays it finds on entry: the grid has
  ten points, point t handles rows 10000·t … 10000·t + 9999 (all 64 channels), the weight and bias blocks are
  the whole weight matrix and bias row at every point, and the ten output blocks tile the [100000, 64] result.
  So the result array ends holding the projection of its first array by its second.
-/
import proofs.«152866_j45277545234577_1_alg».proof.Proof.Gen.KernelIdeal.Frame
import proofs.«152866_j45277545234577_1_alg».proof.Proof.Payloads
import proofs.«152866_j45277545234577_1_alg».proof.Proof.GcnSpec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body Cert.Gcn
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps, decided over the ten grid points: a row window is at block (t, 0), a weight or bias
    window at the origin. -/
theorem index0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row r, channel k of input block 0 at point t is row 10000·t + r of its array. -/
theorem emb0_0 (t : Fin cfg0.N) (r : Fin 10000) (k : Fin 64) (hR : t.val * 10000 + r.val < 100000) :
    ((cfg0.win 0).blk t).view.emb (ix2 r k) = (ix2 (⟨t.val * 10000 + r.val, hR⟩ : Fin 100000) k : S100000x64.Idx) := by
  obtain ⟨e0, e1, e2, e3, e4, e5⟩ := index0 t
  funext a; apply Fin.ext
  match a with
  | ⟨0, _⟩ => show win0_0.index t (0 : Fin 2) * 10000 + 1 * r.val = t.val * 10000 + r.val; omega
  | ⟨1, _⟩ => show win0_0.index t (1 : Fin 2) * 64 + 1 * k.val = k.val; omega

/-- The weight block 1 is the whole weight matrix at every point. -/
theorem emb0_1 (t : Fin cfg0.N) (k : Fin 64) (q : Fin 64) :
    ((cfg0.win 1).blk t).view.emb (ix2 k q) = (ix2 k q : S64x64.Idx) := by
  obtain ⟨e0, e1, e2, e3, e4, e5⟩ := index0 t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- Row r, channel q of the output block at point t is row 10000·t + r of the output array. -/
theorem emb0_out (t : Fin cfg0.N) (r : Fin 10000) (q : Fin 64) (hR : t.val * 10000 + r.val < 100000) :
    ((cfg0.win 2).blk t).view.emb (ix2 r q) = (ix2 (⟨t.val * 10000 + r.val, hR⟩ : Fin 100000) q : S100000x64.Idx) := by
  obtain ⟨e0, e1, e2, e3, e4, e5⟩ := index0 t
  funext a; apply Fin.ext
  match a with
  | ⟨0, _⟩ => show win0_2.index t (0 : Fin 2) * 10000 + 1 * r.val = t.val * 10000 + r.val; omega
  | ⟨1, _⟩ => show win0_2.index t (1 : Fin 2) * 64 + 1 * q.val = q.val; omega

/-- What point t writes back is block t of the whole-array function of the entry arrays. -/
theorem flushed (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S64x64) origin2]
  have hN : grid0.N = 10 := N_0
  have ht : t.val < 10 := hN ▸ t.isLt
  funext j
  obtain ⟨r, q, rfl⟩ : ∃ (r : Fin 10000) (q : Fin 64), j = ix2 r q := ⟨j 0, j 1, eq_ix2 j⟩
  have hR : t.val * 10000 + r.val < 100000 := by have := r.isLt; omega
  show k0_pay1 (iblk0 V c 0 t) (iblk0 V c 1 t) (ix2 r q) = proj (V c main_arg0) (V c main_arg2) (((cfg0.win 2).blk t).view.emb (ix2 r q))
  refine (proj0_apply (iblk0 V c 0 t) (iblk0 V c 1 t) r q).trans ?_
  rw [emb0_out t r q hR]
  refine Eq.trans ?_ (proj_apply (V c main_arg0) (V c main_arg2) ⟨t.val * 10000 + r.val, hR⟩ q).symm
  have h0 : ∀ k : Fin 64, iblk0 V c 0 t (ix2 r k) = V c main_arg0 (ix2 (⟨t.val * 10000 + r.val, hR⟩ : Fin 100000) k) := by
    intro k
    show V c main_arg0 (((cfg0.win 0).blk t).view.emb (ix2 r k)) = _
    rw [emb0_0 t r k hR]
  have h1 : ∀ k : Fin 64, iblk0 V c 1 t (ix2 k q) = V c main_arg2 (ix2 k q) := by
    intro k
    show V c main_arg2 (((cfg0.win 1).blk t).view.emb (ix2 k q)) = _
    rw [emb0_1 t k q]
  exact Finset.sum_congr rfl fun k _ => congrArg₂ (fun s u : EReal => s * u) (h0 k) (h1 k)

/-- An index of the result array is in point t's block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v13).slice (win0_2.rect t)).set ↔ _
  rw [View.set_slice_whole, Rect.mem_set_unit]
  exact Iff.rfl

/-- Every index of the result array is in some point's block: row ρ is in block ρ / 10000. -/
theorem covered (i : S100000x64.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  have htN : (i 0).val / 10000 < grid0.N := by rw [hN]; omega
  refine ⟨⟨(i 0).val / 10000, htN⟩, flush0_2 _, ?_⟩
  rw [mem_blk]
  obtain ⟨e0, e1, e2, e3, e4, e5⟩ := index0 ⟨(i 0).val / 10000, htN⟩
  intro a
  match a with
  | ⟨0, _⟩ =>
    show win0_2.index ⟨(i 0).val / 10000, htN⟩ (0 : Fin 2) * 10000 ≤ (i 0).val ∧ (i 0).val < win0_2.index ⟨(i 0).val / 10000, htN⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, htN⟩ (1 : Fin 2) * 64 ≤ (i 1).val ∧ (i 1).val < win0_2.index ⟨(i 0).val / 10000, htN⟩ (1 : Fin 2) * 64 + 64
    rw [e5]
    omega

/-- THE RESULT ARRAY of region 0, from the arrays it finds on entry. -/
theorem result (c : Dev nD) : (dat0 V c).arrAt 2 cfg0.N = proj (V c main_arg0) (V c main_arg2) :=
  (dat0 V c).arrAt_eq_of_cover 2 (proj (V c main_arg0) (V c main_arg2)) (fun t _ => flushed V c t) covered

end Cert.KernelIdeal.Region0

end
-- ==== Proof.Region1.lean ====
/-
  Region 1 of the kernel program, as a whole-array function of the arrays it finds on entry: the grid has
  ten points, point t handles rows 10000·t … 10000·t + 9999 (all 64 channels), the weight and bias blocks are
  the whole weight matrix and bias row at every point, and the ten output blocks tile the [100000, 64] result.
  So the result array ends holding the convolution epilogue of its four arrays.
-/
import proofs.«152866_j45277545234577_1_alg».proof.Proof.Gen.KernelIdeal.Frame
import proofs.«152866_j45277545234577_1_alg».proof.Proof.Payloads
import proofs.«152866_j45277545234577_1_alg».proof.Proof.GcnSpec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.Gcn
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps, decided over the ten grid points: a row window is at block (t, 0), a weight or bias
    window at the origin. -/
theorem index1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 1) = 0
    ∧ win1_4.index t (0 : Fin 2) = t.val
    ∧ win1_4.index t (1 : Fin 2) = 0 :=
  (by decide +kernel : ∀ t : Fin grid1.N, _)

/-- Row r, channel k of input block 0 at point t is row 10000·t + r of its array. -/
theorem emb1_0 (t : Fin cfg1.N) (r : Fin 10000) (k : Fin 64) (hR : t.val * 10000 + r.val < 100000) :
    ((cfg1.win 0).blk t).view.emb (ix2 r k) = (ix2 (⟨t.val * 10000 + r.val, hR⟩ : Fin 100000) k : S100000x64.Idx) := by
  obtain ⟨e0, e1, e2, e3, e4, e5, e6, e7, e8⟩ := index1 t
  funext a; apply Fin.ext
  match a with
  | ⟨0, _⟩ => show win1_0.index t (0 : Fin 2) * 10000 + 1 * r.val = t.val * 10000 + r.val; omega
  | ⟨1, _⟩ => show win1_0.index t (1 : Fin 2) * 64 + 1 * k.val = k.val; omega

/-- Row r, channel k of input block 1 at point t is row 10000·t + r of its array. -/
theorem emb1_1 (t : Fin cfg1.N) (r : Fin 10000) (k : Fin 64) (hR : t.val * 10000 + r.val < 100000) :
    ((cfg1.win 1).blk t).view.emb (ix2 r k) = (ix2 (⟨t.val * 10000 + r.val, hR⟩ : Fin 100000) k : S100000x64.Idx) := by
  obtain ⟨e0, e1, e2, e3, e4, e5, e6, e7, e8⟩ := index1 t
  funext a; apply Fin.ext
  match a with
  | ⟨0, _⟩ => show win1_1.index t (0 : Fin 2) * 10000 + 1 * r.val = t.val * 10000 + r.val; omega
  | ⟨1, _⟩ => show win1_1.index t (1 : Fin 2) * 64 + 1 * k.val = k.val; omega

/-- Row r of the column block 2 at point t is row 10000·t + r of its array. -/
theorem emb1_2 (t : Fin cfg1.N) (r : Fin 10000) (hR : t.val * 10000 + r.val < 100000) :
    ((cfg1.win 2).blk t).view.emb (ix2 r (0 : Fin 1)) = (ix2 (⟨t.val * 10000 + r.val, hR⟩ : Fin 100000) (0 : Fin 1) : S100000x1.Idx) := by
  obtain ⟨e0, e1, e2, e3, e4, e5, e6, e7, e8⟩ := index1 t
  funext a; apply Fin.ext
  match a with
  | ⟨0, _⟩ => show win1_2.index t (0 : Fin 2) * 10000 + 1 * r.val = t.val * 10000 + r.val; omega
  | ⟨1, _⟩ => show win1_2.index t (1 : Fin 2) * 1 + 1 * 0 = 0; omega

/-- The bias block 3 is the whole bias row at every point. -/
theorem emb1_3 (t : Fin cfg1.N) (q : Fin 64) :
    ((cfg1.win 3).blk t).view.emb (ix1 q) = (ix1 q : S64.Idx) := by
  obtain ⟨e0, e1, e2, e3, e4, e5, e6, e7, e8⟩ := index1 t
  funext a; apply Fin.ext
  match a with
  | ⟨0, _⟩ => show win1_3.index t (0 : Fin 1) * 64 + 1 * q.val = q.val; omega

/-- Row r, channel q of the output block at point t is row 10000·t + r of the output array. -/
theorem emb1_out (t : Fin cfg1.N) (r : Fin 10000) (q : Fin 64) (hR : t.val * 10000 + r.val < 100000) :
    ((cfg1.win 4).blk t).view.emb (ix2 r q) = (ix2 (⟨t.val * 10000 + r.val, hR⟩ : Fin 100000) q : S100000x64.Idx) := by
  obtain ⟨e0, e1, e2, e3, e4, e5, e6, e7, e8⟩ := index1 t
  funext a; apply Fin.ext
  match a with
  | ⟨0, _⟩ => show win1_4.index t (0 : Fin 2) * 10000 + 1 * r.val = t.val * 10000 + r.val; omega
  | ⟨1, _⟩ => show win1_4.index t (1 : Fin 2) * 64 + 1 * q.val = q.val; omega

/-- What point t writes back is block t of the whole-array function of the entry arrays. -/
theorem flushed (c : Dev nD) (t : Fin cfg1.N) :
    (dat1 V c).flushed 4 t = ((cfg1.win 4).blk t).view.read (Elt Ideal) (convCol (V c main_v41) (V c main_v13) (V c main_v12) (V c main_arg3)) := by
  show (cfg1.win 4).cut (grid1.coords t) ((dat1 V c).after 4 t) = _
  rw [after1_4]
  unfold out1_4
  rw [View.canon_unit_zero origin2]
  simp only [View.ld_unit_zero (S := S10000x64) origin2, View.ld_unit_zero (S := S10000x1) origin2, View.ld_unit_zero (S := S64) origin1]
  have hN : grid1.N = 10 := N_1
  have ht : t.val < 10 := hN ▸ t.isLt
  funext j
  obtain ⟨r, q, rfl⟩ : ∃ (r : Fin 10000) (q : Fin 64), j = ix2 r q := ⟨j 0, j 1, eq_ix2 j⟩
  have hR : t.val * 10000 + r.val < 100000 := by have := r.isLt; omega
  show k1_pay1 (iblk1 V c 0 t) (iblk1 V c 1 t) (iblk1 V c 2 t) (iblk1 V c 3 t) (ix2 r q) = convCol (V c main_v41) (V c main_v13) (V c main_v12) (V c main_arg3) (((cfg1.win 4).blk t).view.emb (ix2 r q))
  refine (conv1_apply (iblk1 V c 0 t) (iblk1 V c 1 t) (iblk1 V c 2 t) (iblk1 V c 3 t) r q).trans ?_
  rw [emb1_out t r q hR]
  refine Eq.trans ?_ (convCol_apply (V c main_v41) (V c main_v13) (V c main_v12) (V c main_arg3) ⟨t.val * 10000 + r.val, hR⟩ q).symm
  have ha : iblk1 V c 0 t (ix2 r q) = V c main_v41 (ix2 (⟨t.val * 10000 + r.val, hR⟩ : Fin 100000) q) := by
    show V c main_v41 (((cfg1.win 0).blk t).view.emb (ix2 r q)) = _
    rw [emb1_0 t r q hR]
  have hm : iblk1 V c 1 t (ix2 r q) = V c main_v13 (ix2 (⟨t.val * 10000 + r.val, hR⟩ : Fin 100000) q) := by
    show V c main_v13 (((cfg1.win 1).blk t).view.emb (ix2 r q)) = _
    rw [emb1_1 t r q hR]
  have hs : iblk1 V c 2 t (ix2 r (0 : Fin 1)) = V c main_v12 (ix2 (⟨t.val * 10000 + r.val, hR⟩ : Fin 100000) (0 : Fin 1)) := by
    show V c main_v12 (((cfg1.win 2).blk t).view.emb (ix2 r (0 : Fin 1))) = _
    rw [emb1_2 t r hR]
  have hb : iblk1 V c 3 t (ix1 q) = V c main_arg3 (ix1 q) := by
    show V c main_arg3 (((cfg1.win 3).blk t).view.emb (ix1 q)) = _
    rw [emb1_3 t q]
  exact congrArg (fun s : EReal => max s (Ideal.ofBits .f32 0x00000000#32))
    (congrArg₂ (fun s u : EReal => s + u)
      (congrArg₂ (fun s u : EReal => s + u) ha (congrArg₂ (fun s u : EReal => s * u) hm hs)) hb)

/-- An index of the result array is in point t's block iff each coordinate is in the block's range. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v42).slice (win1_4.rect t)).set ↔ _
  rw [View.set_slice_whole, Rect.mem_set_unit]
  exact Iff.rfl

/-- Every index of the result array is in some point's block: row ρ is in block ρ / 10000. -/
theorem covered (i : S100000x64.Idx) :
    ∃ t : Fin cfg1.N, (cfg1.win 4).flush t = true ∧ i ∈ ((cfg1.win 4).blk t).view.set := by
  have hN : grid1.N = 10 := N_1
  have hi0 : (i 0).val < 100000 := (i 0).isLt
  have hi1 : (i 1).val < 64 := (i 1).isLt
  have htN : (i 0).val / 10000 < grid1.N := by rw [hN]; omega
  refine ⟨⟨(i 0).val / 10000, htN⟩, flush1_4 _, ?_⟩
  rw [mem_blk]
  obtain ⟨e0, e1, e2, e3, e4, e5, e6, e7, e8⟩ := index1 ⟨(i 0).val / 10000, htN⟩
  intro a
  match a with
  | ⟨0, _⟩ =>
    show win1_4.index ⟨(i 0).val / 10000, htN⟩ (0 : Fin 2) * 10000 ≤ (i 0).val ∧ (i 0).val < win1_4.index ⟨(i 0).val / 10000, htN⟩ (0 : Fin 2) * 10000 + 10000
    rw [e7]
    show (i 0).val / 10000 * 10000 ≤ (i 0).val ∧ (i 0).val < (i 0).val / 10000 * 10000 + 10000
    omega
  | ⟨1, _⟩ =>
    show win1_4.index ⟨(i 0).val / 10000, htN⟩ (1 : Fin 2) * 64 ≤ (i 1).val ∧ (i 1).val < win1_4.index ⟨(i 0).val / 10000, htN⟩ (1 : Fin 2) * 64 + 64
    rw [e8]
    omega

/-- THE RESULT ARRAY of region 1, from the arrays it finds on entry. -/
theorem result (c : Dev nD) : (dat1 V c).arrAt 4 cfg1.N = convCol (V c main_v41) (V c main_v13) (V c main_v12) (V c main_arg3) :=
  (dat1 V c).arrAt_eq_of_cover 4 (convCol (V c main_v41) (V c main_v13) (V c main_v12) (V c main_arg3)) (fun t _ => flushed V c t) covered

end Cert.KernelIdeal.Region1

end
-- ==== Proof.Region2.lean ====
/-
  Region 2 of the kernel program, as a whole-array function of the arrays it finds on entry: the grid has
  ten points, point t handles rows 10000·t … 10000·t + 9999 (all 64 channels), the weight and bias blocks are
  the whole weight matrix and bias row at every point, and the ten output blocks tile the [100000, 64] result.
  So the result array ends holding the projection of its first array by its second.
-/
import proofs.«152866_j45277545234577_1_alg».proof.Proof.Gen.KernelIdeal.Frame
import proofs.«152866_j45277545234577_1_alg».proof.Proof.Payloads
import proofs.«152866_j45277545234577_1_alg».proof.Proof.GcnSpec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Body Cert.Gcn
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps, decided over the ten grid points: a row window is at block (t, 0), a weight or bias
    window at the origin. -/
theorem index2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row r, channel k of input block 0 at point t is row 10000·t + r of its array. -/
theorem emb2_0 (t : Fin cfg2.N) (r : Fin 10000) (k : Fin 64) (hR : t.val * 10000 + r.val < 100000) :
    ((cfg2.win 0).blk t).view.emb (ix2 r k) = (ix2 (⟨t.val * 10000 + r.val, hR⟩ : Fin 100000) k : S100000x64.Idx) := by
  obtain ⟨e0, e1, e2, e3, e4, e5⟩ := index2 t
  funext a; apply Fin.ext
  match a with
  | ⟨0, _⟩ => show win2_0.index t (0 : Fin 2) * 10000 + 1 * r.val = t.val * 10000 + r.val; omega
  | ⟨1, _⟩ => show win2_0.index t (1 : Fin 2) * 64 + 1 * k.val = k.val; omega

/-- The weight block 1 is the whole weight matrix at every point. -/
theorem emb2_1 (t : Fin cfg2.N) (k : Fin 64) (q : Fin 64) :
    ((cfg2.win 1).blk t).view.emb (ix2 k q) = (ix2 k q : S64x64.Idx) := by
  obtain ⟨e0, e1, e2, e3, e4, e5⟩ := index2 t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Row r, channel q of the output block at point t is row 10000·t + r of the output array. -/
theorem emb2_out (t : Fin cfg2.N) (r : Fin 10000) (q : Fin 64) (hR : t.val * 10000 + r.val < 100000) :
    ((cfg2.win 2).blk t).view.emb (ix2 r q) = (ix2 (⟨t.val * 10000 + r.val, hR⟩ : Fin 100000) q : S100000x64.Idx) := by
  obtain ⟨e0, e1, e2, e3, e4, e5⟩ := index2 t
  funext a; apply Fin.ext
  match a with
  | ⟨0, _⟩ => show win2_2.index t (0 : Fin 2) * 10000 + 1 * r.val = t.val * 10000 + r.val; omega
  | ⟨1, _⟩ => show win2_2.index t (1 : Fin 2) * 64 + 1 * q.val = q.val; omega

/-- What point t writes back is block t of the whole-array function of the entry arrays. -/
theorem flushed (c : Dev nD) (t : Fin cfg2.N) :
    (dat2 V c).flushed 2 t = ((cfg2.win 2).blk t).view.read (Elt Ideal) (proj (V c main_v42) (V c main_arg4)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  have hN : grid2.N = 10 := N_2
  have ht : t.val < 10 := hN ▸ t.isLt
  funext j
  obtain ⟨r, q, rfl⟩ : ∃ (r : Fin 10000) (q : Fin 64), j = ix2 r q := ⟨j 0, j 1, eq_ix2 j⟩
  have hR : t.val * 10000 + r.val < 100000 := by have := r.isLt; omega
  show k2_pay1 (iblk2 V c 0 t) (iblk2 V c 1 t) (ix2 r q) = proj (V c main_v42) (V c main_arg4) (((cfg2.win 2).blk t).view.emb (ix2 r q))
  refine (proj2_apply (iblk2 V c 0 t) (iblk2 V c 1 t) r q).trans ?_
  rw [emb2_out t r q hR]
  refine Eq.trans ?_ (proj_apply (V c main_v42) (V c main_arg4) ⟨t.val * 10000 + r.val, hR⟩ q).symm
  have h0 : ∀ k : Fin 64, iblk2 V c 0 t (ix2 r k) = V c main_v42 (ix2 (⟨t.val * 10000 + r.val, hR⟩ : Fin 100000) k) := by
    intro k
    show V c main_v42 (((cfg2.win 0).blk t).view.emb (ix2 r k)) = _
    rw [emb2_0 t r k hR]
  have h1 : ∀ k : Fin 64, iblk2 V c 1 t (ix2 k q) = V c main_arg4 (ix2 k q) := by
    intro k
    show V c main_arg4 (((cfg2.win 1).blk t).view.emb (ix2 k q)) = _
    rw [emb2_1 t k q]
  exact Finset.sum_congr rfl fun k _ => congrArg₂ (fun s u : EReal => s * u) (h0 k) (h1 k)

/-- An index of the result array is in point t's block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every index of the result array is in some point's block: row ρ is in block ρ / 10000. -/
theorem covered (i : S100000x64.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 64 := (i 1).isLt
  have htN : (i 0).val / 10000 < grid2.N := by rw [hN]; omega
  refine ⟨⟨(i 0).val / 10000, htN⟩, flush2_2 _, ?_⟩
  rw [mem_blk]
  obtain ⟨e0, e1, e2, e3, e4, e5⟩ := index2 ⟨(i 0).val / 10000, htN⟩
  intro a
  match a with
  | ⟨0, _⟩ =>
    show win2_2.index ⟨(i 0).val / 10000, htN⟩ (0 : Fin 2) * 10000 ≤ (i 0).val ∧ (i 0).val < win2_2.index ⟨(i 0).val / 10000, htN⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, htN⟩ (1 : Fin 2) * 64 ≤ (i 1).val ∧ (i 1).val < win2_2.index ⟨(i 0).val / 10000, htN⟩ (1 : Fin 2) * 64 + 64
    rw [e5]
    omega

/-- THE RESULT ARRAY of region 2, from the arrays it finds on entry. -/
theorem result (c : Dev nD) : (dat2 V c).arrAt 2 cfg2.N = proj (V c main_v42) (V c main_arg4) :=
  (dat2 V c).arrAt_eq_of_cover 2 (proj (V c main_v42) (V c main_arg4)) (fun t _ => flushed V c t) covered

end Cert.KernelIdeal.Region2

end
-- ==== Proof.Region3.lean ====
/-
  Region 3 of the kernel program, as a whole-array function of the arrays it finds on entry: the grid has
  ten points, point t handles rows 10000·t … 10000·t + 9999 (all 64 channels), the weight and bias blocks are
  the whole weight matrix and bias row at every point, and the ten output blocks tile the [100000, 64] result.
  So the result array ends holding the convolution epilogue of its four arrays.
-/
import proofs.«152866_j45277545234577_1_alg».proof.Proof.Gen.KernelIdeal.Frame
import proofs.«152866_j45277545234577_1_alg».proof.Proof.Payloads
import proofs.«152866_j45277545234577_1_alg».proof.Proof.GcnSpec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.Body Cert.Gcn
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps, decided over the ten grid points: a row window is at block (t, 0), a weight or bias
    window at the origin. -/
theorem index3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 1) = 0
    ∧ win3_4.index t (0 : Fin 2) = t.val
    ∧ win3_4.index t (1 : Fin 2) = 0 :=
  (by decide +kernel : ∀ t : Fin grid3.N, _)

/-- Row r, channel k of input block 0 at point t is row 10000·t + r of its array. -/
theorem emb3_0 (t : Fin cfg3.N) (r : Fin 10000) (k : Fin 64) (hR : t.val * 10000 + r.val < 100000) :
    ((cfg3.win 0).blk t).view.emb (ix2 r k) = (ix2 (⟨t.val * 10000 + r.val, hR⟩ : Fin 100000) k : S100000x64.Idx) := by
  obtain ⟨e0, e1, e2, e3, e4, e5, e6, e7, e8⟩ := index3 t
  funext a; apply Fin.ext
  match a with
  | ⟨0, _⟩ => show win3_0.index t (0 : Fin 2) * 10000 + 1 * r.val = t.val * 10000 + r.val; omega
  | ⟨1, _⟩ => show win3_0.index t (1 : Fin 2) * 64 + 1 * k.val = k.val; omega

/-- Row r, channel k of input block 1 at point t is row 10000·t + r of its array. -/
theorem emb3_1 (t : Fin cfg3.N) (r : Fin 10000) (k : Fin 64) (hR : t.val * 10000 + r.val < 100000) :
    ((cfg3.win 1).blk t).view.emb (ix2 r k) = (ix2 (⟨t.val * 10000 + r.val, hR⟩ : Fin 100000) k : S100000x64.Idx) := by
  obtain ⟨e0, e1, e2, e3, e4, e5, e6, e7, e8⟩ := index3 t
  funext a; apply Fin.ext
  match a with
  | ⟨0, _⟩ => show win3_1.index t (0 : Fin 2) * 10000 + 1 * r.val = t.val * 10000 + r.val; omega
  | ⟨1, _⟩ => show win3_1.index t (1 : Fin 2) * 64 + 1 * k.val = k.val; omega

/-- Row r of the column block 2 at point t is row 10000·t + r of its array. -/
theorem emb3_2 (t : Fin cfg3.N) (r : Fin 10000) (hR : t.val * 10000 + r.val < 100000) :
    ((cfg3.win 2).blk t).view.emb (ix2 r (0 : Fin 1)) = (ix2 (⟨t.val * 10000 + r.val, hR⟩ : Fin 100000) (0 : Fin 1) : S100000x1.Idx) := by
  obtain ⟨e0, e1, e2, e3, e4, e5, e6, e7, e8⟩ := index3 t
  funext a; apply Fin.ext
  match a with
  | ⟨0, _⟩ => show win3_2.index t (0 : Fin 2) * 10000 + 1 * r.val = t.val * 10000 + r.val; omega
  | ⟨1, _⟩ => show win3_2.index t (1 : Fin 2) * 1 + 1 * 0 = 0; omega

/-- The bias block 3 is the whole bias row at every point. -/
theorem emb3_3 (t : Fin cfg3.N) (q : Fin 64) :
    ((cfg3.win 3).blk t).view.emb (ix1 q) = (ix1 q : S64.Idx) := by
  obtain ⟨e0, e1, e2, e3, e4, e5, e6, e7, e8⟩ := index3 t
  funext a; apply Fin.ext
  match a with
  | ⟨0, _⟩ => show win3_3.index t (0 : Fin 1) * 64 + 1 * q.val = q.val; omega

/-- Row r, channel q of the output block at point t is row 10000·t + r of the output array. -/
theorem emb3_out (t : Fin cfg3.N) (r : Fin 10000) (q : Fin 64) (hR : t.val * 10000 + r.val < 100000) :
    ((cfg3.win 4).blk t).view.emb (ix2 r q) = (ix2 (⟨t.val * 10000 + r.val, hR⟩ : Fin 100000) q : S100000x64.Idx) := by
  obtain ⟨e0, e1, e2, e3, e4, e5, e6, e7, e8⟩ := index3 t
  funext a; apply Fin.ext
  match a with
  | ⟨0, _⟩ => show win3_4.index t (0 : Fin 2) * 10000 + 1 * r.val = t.val * 10000 + r.val; omega
  | ⟨1, _⟩ => show win3_4.index t (1 : Fin 2) * 64 + 1 * q.val = q.val; omega

/-- What point t writes back is block t of the whole-array function of the entry arrays. -/
theorem flushed (c : Dev nD) (t : Fin cfg3.N) :
    (dat3 V c).flushed 4 t = ((cfg3.win 4).blk t).view.read (Elt Ideal) (convCol (V c main_v71) (V c main_v43) (V c main_v12) (V c main_arg5)) := by
  show (cfg3.win 4).cut (grid3.coords t) ((dat3 V c).after 4 t) = _
  rw [after3_4]
  unfold out3_4
  rw [View.canon_unit_zero origin2]
  simp only [View.ld_unit_zero (S := S10000x64) origin2, View.ld_unit_zero (S := S10000x1) origin2, View.ld_unit_zero (S := S64) origin1]
  have hN : grid3.N = 10 := N_3
  have ht : t.val < 10 := hN ▸ t.isLt
  funext j
  obtain ⟨r, q, rfl⟩ : ∃ (r : Fin 10000) (q : Fin 64), j = ix2 r q := ⟨j 0, j 1, eq_ix2 j⟩
  have hR : t.val * 10000 + r.val < 100000 := by have := r.isLt; omega
  show k3_pay1 (iblk3 V c 0 t) (iblk3 V c 1 t) (iblk3 V c 2 t) (iblk3 V c 3 t) (ix2 r q) = convCol (V c main_v71) (V c main_v43) (V c main_v12) (V c main_arg5) (((cfg3.win 4).blk t).view.emb (ix2 r q))
  refine (conv3_apply (iblk3 V c 0 t) (iblk3 V c 1 t) (iblk3 V c 2 t) (iblk3 V c 3 t) r q).trans ?_
  rw [emb3_out t r q hR]
  refine Eq.trans ?_ (convCol_apply (V c main_v71) (V c main_v43) (V c main_v12) (V c main_arg5) ⟨t.val * 10000 + r.val, hR⟩ q).symm
  have ha : iblk3 V c 0 t (ix2 r q) = V c main_v71 (ix2 (⟨t.val * 10000 + r.val, hR⟩ : Fin 100000) q) := by
    show V c main_v71 (((cfg3.win 0).blk t).view.emb (ix2 r q)) = _
    rw [emb3_0 t r q hR]
  have hm : iblk3 V c 1 t (ix2 r q) = V c main_v43 (ix2 (⟨t.val * 10000 + r.val, hR⟩ : Fin 100000) q) := by
    show V c main_v43 (((cfg3.win 1).blk t).view.emb (ix2 r q)) = _
    rw [emb3_1 t r q hR]
  have hs : iblk3 V c 2 t (ix2 r (0 : Fin 1)) = V c main_v12 (ix2 (⟨t.val * 10000 + r.val, hR⟩ : Fin 100000) (0 : Fin 1)) := by
    show V c main_v12 (((cfg3.win 2).blk t).view.emb (ix2 r (0 : Fin 1))) = _
    rw [emb3_2 t r hR]
  have hb : iblk3 V c 3 t (ix1 q) = V c main_arg5 (ix1 q) := by
    show V c main_arg5 (((cfg3.win 3).blk t).view.emb (ix1 q)) = _
    rw [emb3_3 t q]
  exact congrArg (fun s : EReal => max s (Ideal.ofBits .f32 0x00000000#32))
    (congrArg₂ (fun s u : EReal => s + u)
      (congrArg₂ (fun s u : EReal => s + u) ha (congrArg₂ (fun s u : EReal => s * u) hm hs)) hb)

/-- An index of the result array is in point t's block iff each coordinate is in the block's range. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v72).slice (win3_4.rect t)).set ↔ _
  rw [View.set_slice_whole, Rect.mem_set_unit]
  exact Iff.rfl

/-- Every index of the result array is in some point's block: row ρ is in block ρ / 10000. -/
theorem covered (i : S100000x64.Idx) :
    ∃ t : Fin cfg3.N, (cfg3.win 4).flush t = true ∧ i ∈ ((cfg3.win 4).blk t).view.set := by
  have hN : grid3.N = 10 := N_3
  have hi0 : (i 0).val < 100000 := (i 0).isLt
  have hi1 : (i 1).val < 64 := (i 1).isLt
  have htN : (i 0).val / 10000 < grid3.N := by rw [hN]; omega
  refine ⟨⟨(i 0).val / 10000, htN⟩, flush3_4 _, ?_⟩
  rw [mem_blk]
  obtain ⟨e0, e1, e2, e3, e4, e5, e6, e7, e8⟩ := index3 ⟨(i 0).val / 10000, htN⟩
  intro a
  match a with
  | ⟨0, _⟩ =>
    show win3_4.index ⟨(i 0).val / 10000, htN⟩ (0 : Fin 2) * 10000 ≤ (i 0).val ∧ (i 0).val < win3_4.index ⟨(i 0).val / 10000, htN⟩ (0 : Fin 2) * 10000 + 10000
    rw [e7]
    show (i 0).val / 10000 * 10000 ≤ (i 0).val ∧ (i 0).val < (i 0).val / 10000 * 10000 + 10000
    omega
  | ⟨1, _⟩ =>
    show win3_4.index ⟨(i 0).val / 10000, htN⟩ (1 : Fin 2) * 64 ≤ (i 1).val ∧ (i 1).val < win3_4.index ⟨(i 0).val / 10000, htN⟩ (1 : Fin 2) * 64 + 64
    rw [e8]
    omega

/-- THE RESULT ARRAY of region 3, from the arrays it finds on entry. -/
theorem result (c : Dev nD) : (dat3 V c).arrAt 4 cfg3.N = convCol (V c main_v71) (V c main_v43) (V c main_v12) (V c main_arg5) :=
  (dat3 V c).arrAt_eq_of_cover 4 (convCol (V c main_v71) (V c main_v43) (V c main_v12) (V c main_arg5)) (fun t _ => flushed V c t) covered

end Cert.KernelIdeal.Region3

end
-- ==== Proof.Region4.lean ====
/-
  Region 4 of the kernel program, as a whole-array function of the arrays it finds on entry: the grid has
  ten points, point t handles rows 10000·t … 10000·t + 9999 (all 64 channels), the weight and bias blocks are
  the whole weight matrix and bias row at every point, and the ten output blocks tile the [100000, 64] result.
  So the result array ends holding the linear head of its three arrays.
-/
import proofs.«152866_j45277545234577_1_alg».proof.Proof.Gen.KernelIdeal.Frame
import proofs.«152866_j45277545234577_1_alg».proof.Proof.Payloads
import proofs.«152866_j45277545234577_1_alg».proof.Proof.GcnSpec
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.KernelIdeal.Body Cert.Gcn
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps, decided over the ten grid points: a row window is at block (t, 0), a weight or bias
    window at the origin. -/
theorem index4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = t.val
    ∧ win4_3.index t (1 : Fin 2) = 0 :=
  (by decide +kernel : ∀ t : Fin grid4.N, _)

/-- Row r, channel k of input block 0 at point t is row 10000·t + r of its array. -/
theorem emb4_0 (t : Fin cfg4.N) (r : Fin 10000) (k : Fin 64) (hR : t.val * 10000 + r.val < 100000) :
    ((cfg4.win 0).blk t).view.emb (ix2 r k) = (ix2 (⟨t.val * 10000 + r.val, hR⟩ : Fin 100000) k : S100000x64.Idx) := by
  obtain ⟨e0, e1, e2, e3, e4, e5, e6⟩ := index4 t
  funext a; apply Fin.ext
  match a with
  | ⟨0, _⟩ => show win4_0.index t (0 : Fin 2) * 10000 + 1 * r.val = t.val * 10000 + r.val; omega
  | ⟨1, _⟩ => show win4_0.index t (1 : Fin 2) * 64 + 1 * k.val = k.val; omega

/-- The weight block 1 is the whole weight matrix at every point. -/
theorem emb4_1 (t : Fin cfg4.N) (k : Fin 64) (q : Fin 64) :
    ((cfg4.win 1).blk t).view.emb (ix2 k q) = (ix2 k q : S64x64.Idx) := by
  obtain ⟨e0, e1, e2, e3, e4, e5, e6⟩ := index4 t
  funext a; apply Fin.ext
  match a with
  | ⟨0, _⟩ => show win4_1.index t (0 : Fin 2) * 64 + 1 * k.val = k.val; omega
  | ⟨1, _⟩ => show win4_1.index t (1 : Fin 2) * 64 + 1 * q.val = q.val; omega

/-- The bias block 2 is the whole bias row at every point. -/
theorem emb4_2 (t : Fin cfg4.N) (q : Fin 64) :
    ((cfg4.win 2).blk t).view.emb (ix1 q) = (ix1 q : S64.Idx) := by
  obtain ⟨e0, e1, e2, e3, e4, e5, e6⟩ := index4 t
  funext a; apply Fin.ext
  match a with
  | ⟨0, _⟩ => show win4_2.index t (0 : Fin 1) * 64 + 1 * q.val = q.val; omega

/-- Row r, channel q of the output block at point t is row 10000·t + r of the output array. -/
theorem emb4_out (t : Fin cfg4.N) (r : Fin 10000) (q : Fin 64) (hR : t.val * 10000 + r.val < 100000) :
    ((cfg4.win 3).blk t).view.emb (ix2 r q) = (ix2 (⟨t.val * 10000 + r.val, hR⟩ : Fin 100000) q : S100000x64.Idx) := by
  obtain ⟨e0, e1, e2, e3, e4, e5, e6⟩ := index4 t
  funext a; apply Fin.ext
  match a with
  | ⟨0, _⟩ => show win4_3.index t (0 : Fin 2) * 10000 + 1 * r.val = t.val * 10000 + r.val; omega
  | ⟨1, _⟩ => show win4_3.index t (1 : Fin 2) * 64 + 1 * q.val = q.val; omega

/-- What point t writes back is block t of the whole-array function of the entry arrays. -/
theorem flushed (c : Dev nD) (t : Fin cfg4.N) :
    (dat4 V c).flushed 3 t = ((cfg4.win 3).blk t).view.read (Elt Ideal) (head (V c main_v72) (V c main_arg6) (V c main_arg7)) := by
  show (cfg4.win 3).cut (grid4.coords t) ((dat4 V c).after 3 t) = _
  rw [after4_3]
  unfold out4_3
  rw [View.canon_unit_zero origin2]
  simp only [View.ld_unit_zero (S := S10000x64) origin2, View.ld_unit_zero (S := S64x64) origin2, View.ld_unit_zero (S := S64) origin1]
  have hN : grid4.N = 10 := N_4
  have ht : t.val < 10 := hN ▸ t.isLt
  funext j
  obtain ⟨r, q, rfl⟩ : ∃ (r : Fin 10000) (q : Fin 64), j = ix2 r q := ⟨j 0, j 1, eq_ix2 j⟩
  have hR : t.val * 10000 + r.val < 100000 := by have := r.isLt; omega
  show k4_pay1 (iblk4 V c 0 t) (iblk4 V c 1 t) (iblk4 V c 2 t) (ix2 r q) = head (V c main_v72) (V c main_arg6) (V c main_arg7) (((cfg4.win 3).blk t).view.emb (ix2 r q))
  refine (head4_apply (iblk4 V c 0 t) (iblk4 V c 1 t) (iblk4 V c 2 t) r q).trans ?_
  rw [emb4_out t r q hR]
  refine Eq.trans ?_ (head_apply (V c main_v72) (V c main_arg6) (V c main_arg7) ⟨t.val * 10000 + r.val, hR⟩ q).symm
  have h0 : ∀ k : Fin 64, iblk4 V c 0 t (ix2 r k) = V c main_v72 (ix2 (⟨t.val * 10000 + r.val, hR⟩ : Fin 100000) k) := by
    intro k
    show V c main_v72 (((cfg4.win 0).blk t).view.emb (ix2 r k)) = _
    rw [emb4_0 t r k hR]
  have h1 : ∀ k : Fin 64, iblk4 V c 1 t (ix2 k q) = V c main_arg6 (ix2 k q) := by
    intro k
    show V c main_arg6 (((cfg4.win 1).blk t).view.emb (ix2 k q)) = _
    rw [emb4_1 t k q]
  have hb : iblk4 V c 2 t (ix1 q) = V c main_arg7 (ix1 q) := by
    show V c main_arg7 (((cfg4.win 2).blk t).view.emb (ix1 q)) = _
    rw [emb4_2 t q]
  exact congrArg₂ (fun s u : EReal => s + u)
    (Finset.sum_congr rfl fun k _ => congrArg₂ (fun s u : EReal => s * u) (h0 k) (h1 k)) hb

/-- An index of the result array is in point t's block iff each coordinate is in the block's range. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v73).slice (win4_3.rect t)).set ↔ _
  rw [View.set_slice_whole, Rect.mem_set_unit]
  exact Iff.rfl

/-- Every index of the result array is in some point's block: row ρ is in block ρ / 10000. -/
theorem covered (i : S100000x64.Idx) :
    ∃ t : Fin cfg4.N, (cfg4.win 3).flush t = true ∧ i ∈ ((cfg4.win 3).blk t).view.set := by
  have hN : grid4.N = 10 := N_4
  have hi0 : (i 0).val < 100000 := (i 0).isLt
  have hi1 : (i 1).val < 64 := (i 1).isLt
  have htN : (i 0).val / 10000 < grid4.N := by rw [hN]; omega
  refine ⟨⟨(i 0).val / 10000, htN⟩, flush4_3 _, ?_⟩
  rw [mem_blk]
  obtain ⟨e0, e1, e2, e3, e4, e5, e6⟩ := index4 ⟨(i 0).val / 10000, htN⟩
  intro a
  match a with
  | ⟨0, _⟩ =>
    show win4_3.index ⟨(i 0).val / 10000, htN⟩ (0 : Fin 2) * 10000 ≤ (i 0).val ∧ (i 0).val < win4_3.index ⟨(i 0).val / 10000, htN⟩ (0 : Fin 2) * 10000 + 10000
    rw [e5]
    show (i 0).val / 10000 * 10000 ≤ (i 0).val ∧ (i 0).val < (i 0).val / 10000 * 10000 + 10000
    omega
  | ⟨1, _⟩ =>
    show win4_3.index ⟨(i 0).val / 10000, htN⟩ (1 : Fin 2) * 64 ≤ (i 1).val ∧ (i 1).val < win4_3.index ⟨(i 0).val / 10000, htN⟩ (1 : Fin 2) * 64 + 64
    rw [e6]
    omega

/-- THE RESULT ARRAY of region 4, from the arrays it finds on entry. -/
theorem result (c : Dev nD) : (dat4 V c).arrAt 3 cfg4.N = head (V c main_v72) (V c main_arg6) (V c main_arg7) :=
  (dat4 V c).arrAt_eq_of_cover 3 (head (V c main_v72) (V c main_arg6) (V c main_arg7)) (fun t _ => flushed V c t) covered

end Cert.KernelIdeal.Region4

end
-- ==== Proof.KernelValue.lean ====
/-
  The contents of every buffer the program still needs, at each boundary between its eight segments, as a
  function of the eight arguments.  A stretch of host operations leaves a buffer it does not write as it was and
  computes the others by the pure functions of the host operations; a region leaves every buffer that is not one
  of its arrays as it was, an input array as it was, and its output array at the whole-array function of its
  input arrays.  Walking the eight segments: the result is the linear head of two graph-convolution layers.
-/
import proofs.«152866_j45277545234577_1_alg».proof.Proof.Gen.KernelIdeal.Frame
import proofs.«152866_j45277545234577_1_alg».proof.Proof.HostParts
import proofs.«152866_j45277545234577_1_alg».proof.Proof.GcnSpec
import proofs.«152866_j45277545234577_1_alg».proof.Proof.Region0
import proofs.«152866_j45277545234577_1_alg».proof.Proof.Region1
import proofs.«152866_j45277545234577_1_alg».proof.Proof.Region2
import proofs.«152866_j45277545234577_1_alg».proof.Proof.Region3
import proofs.«152866_j45277545234577_1_alg».proof.Proof.Region4
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn
open Idealize.ShloMosaic.Pipeline (Dat)

/-- One graph-convolution layer: project, aggregate over the edges, add the self loop and the bias, relu. -/
def layer (ei : IVec S2x1250000 32) (h : FVec Ideal S100000x64 .f32) (w : FVec Ideal S64x64 .f32) (b : FVec Ideal S64 .f32) :
    FVec Ideal S100000x64 .f32 :=
  convCol (aggregate (sources ei) (targets ei) (invDeg ei) (proj h w)) (proj h w) (selfCol ei) b

theorem proj_congr {x x' : FVec Ideal S100000x64 .f32} {w w' : FVec Ideal S64x64 .f32} (hx : x = x') (hw : w = w') :
    proj x w = proj x' w' := by rw [hx, hw]
theorem head_congr {x x' : FVec Ideal S100000x64 .f32} {w w' : FVec Ideal S64x64 .f32} {b b' : FVec Ideal S64 .f32}
    (hx : x = x') (hw : w = w') (hb : b = b') : head x w b = head x' w' b' := by rw [hx, hw, hb]
theorem convCol_congr {a a' mm mm' : FVec Ideal S100000x64 .f32} {s s' : FVec Ideal S100000x1 .f32} {b b' : FVec Ideal S64 .f32}
    (ha : a = a') (hm : mm = mm') (hs : s = s') (hb : b = b') : convCol a mm s b = convCol a' mm' s' b' := by rw [ha, hm, hs, hb]
theorem aggregate_congr {s s' d d' : IVec S1250000 32} {v v' : FVec Ideal S100000 .f32} {mm mm' : FVec Ideal S100000x64 .f32}
    (hs : s = s') (hd : d = d') (hv : v = v') (hm : mm = mm') : aggregate s d v mm = aggregate s' d' v' mm' := by rw [hs, hd, hv, hm]

/-! ## Buffers a stretch of host operations does not write -/

theorem keep0_arg0 (W : Valuation τ sig (Elt Ideal)) : StableHlo.after (hostOps0 (F := Ideal)) W (Proc.devRef .tc main_arg0) = W (Proc.devRef .tc main_arg0) := by
  after_results_simp
theorem keep0_arg2 (W : Valuation τ sig (Elt Ideal)) : StableHlo.after (hostOps0 (F := Ideal)) W (Proc.devRef .tc main_arg2) = W (Proc.devRef .tc main_arg2) := by
  after_results_simp
theorem keep0_arg3 (W : Valuation τ sig (Elt Ideal)) : StableHlo.after (hostOps0 (F := Ideal)) W (Proc.devRef .tc main_arg3) = W (Proc.devRef .tc main_arg3) := by
  after_results_simp
theorem keep0_arg4 (W : Valuation τ sig (Elt Ideal)) : StableHlo.after (hostOps0 (F := Ideal)) W (Proc.devRef .tc main_arg4) = W (Proc.devRef .tc main_arg4) := by
  after_results_simp
theorem keep0_arg5 (W : Valuation τ sig (Elt Ideal)) : StableHlo.after (hostOps0 (F := Ideal)) W (Proc.devRef .tc main_arg5) = W (Proc.devRef .tc main_arg5) := by
  after_results_simp
theorem keep0_arg6 (W : Valuation τ sig (Elt Ideal)) : StableHlo.after (hostOps0 (F := Ideal)) W (Proc.devRef .tc main_arg6) = W (Proc.devRef .tc main_arg6) := by
  after_results_simp
theorem keep0_arg7 (W : Valuation τ sig (Elt Ideal)) : StableHlo.after (hostOps0 (F := Ideal)) W (Proc.devRef .tc main_arg7) = W (Proc.devRef .tc main_arg7) := by
  after_results_simp
theorem keep1_v13 (W : Valuation τ sig (Elt Ideal)) : StableHlo.after (hostOps1 (F := Ideal)) W (Proc.devRef .tc main_v13) = W (Proc.devRef .tc main_v13) := by
  after_results_simp
theorem keep1_v12 (W : Valuation τ sig (Elt Ideal)) : StableHlo.after (hostOps1 (F := Ideal)) W (Proc.devRef .tc main_v12) = W (Proc.devRef .tc main_v12) := by
  after_results_simp
theorem keep1_arg3 (W : Valuation τ sig (Elt Ideal)) : StableHlo.after (hostOps1 (F := Ideal)) W (Proc.devRef .tc main_arg3) = W (Proc.devRef .tc main_arg3) := by
  after_results_simp
theorem keep1_v1 (W : Valuation τ sig (Elt Ideal)) : StableHlo.after (hostOps1 (F := Ideal)) W (Proc.devRef .tc main_v1) = W (Proc.devRef .tc main_v1) := by
  after_results_simp
theorem keep1_v3 (W : Valuation τ sig (Elt Ideal)) : StableHlo.after (hostOps1 (F := Ideal)) W (Proc.devRef .tc main_v3) = W (Proc.devRef .tc main_v3) := by
  after_results_simp
theorem keep1_v10 (W : Valuation τ sig (Elt Ideal)) : StableHlo.after (hostOps1 (F := Ideal)) W (Proc.devRef .tc main_v10) = W (Proc.devRef .tc main_v10) := by
  after_results_simp
theorem keep1_arg4 (W : Valuation τ sig (Elt Ideal)) : StableHlo.after (hostOps1 (F := Ideal)) W (Proc.devRef .tc main_arg4) = W (Proc.devRef .tc main_arg4) := by
  after_results_simp
theorem keep1_arg5 (W : Valuation τ sig (Elt Ideal)) : StableHlo.after (hostOps1 (F := Ideal)) W (Proc.devRef .tc main_arg5) = W (Proc.devRef .tc main_arg5) := by
  after_results_simp
theorem keep1_arg6 (W : Valuation τ sig (Elt Ideal)) : StableHlo.after (hostOps1 (F := Ideal)) W (Proc.devRef .tc main_arg6) = W (Proc.devRef .tc main_arg6) := by
  after_results_simp
theorem keep1_arg7 (W : Valuation τ sig (Elt Ideal)) : StableHlo.after (hostOps1 (F := Ideal)) W (Proc.devRef .tc main_arg7) = W (Proc.devRef .tc main_arg7) := by
  after_results_simp
theorem keep3_v43 (W : Valuation τ sig (Elt Ideal)) : StableHlo.after (hostOps3 (F := Ideal)) W (Proc.devRef .tc main_v43) = W (Proc.devRef .tc main_v43) := by
  after_results_simp
theorem keep3_v12 (W : Valuation τ sig (Elt Ideal)) : StableHlo.after (hostOps3 (F := Ideal)) W (Proc.devRef .tc main_v12) = W (Proc.devRef .tc main_v12) := by
  after_results_simp
theorem keep3_arg5 (W : Valuation τ sig (Elt Ideal)) : StableHlo.after (hostOps3 (F := Ideal)) W (Proc.devRef .tc main_arg5) = W (Proc.devRef .tc main_arg5) := by
  after_results_simp
theorem keep3_arg6 (W : Valuation τ sig (Elt Ideal)) : StableHlo.after (hostOps3 (F := Ideal)) W (Proc.devRef .tc main_arg6) = W (Proc.devRef .tc main_arg6) := by
  after_results_simp
theorem keep3_arg7 (W : Valuation τ sig (Elt Ideal)) : StableHlo.after (hostOps3 (F := Ideal)) W (Proc.devRef .tc main_arg7) = W (Proc.devRef .tc main_arg7) := by
  after_results_simp

variable (m : (ℓ : Loc nD τ sig) → Buf (Elt Ideal) ℓ) (ρ : Dev nD → PrngReg) (c : Dev nD)

/-! ## After the first stretch of host operations (entering region 0) -/
theorem s1_v1 : W1 m ρ c (Proc.devRef .tc main_v1) = sources (m ((c : Thread nD τ).loc main_arg1)) := pre_sources (W0 m ρ c)
theorem s1_v3 : W1 m ρ c (Proc.devRef .tc main_v3) = targets (m ((c : Thread nD τ).loc main_arg1)) := pre_targets (W0 m ρ c)
theorem s1_v10 : W1 m ρ c (Proc.devRef .tc main_v10) = invDeg (m ((c : Thread nD τ).loc main_arg1)) := pre_invDeg (W0 m ρ c)
theorem s1_v12 : W1 m ρ c (Proc.devRef .tc main_v12) = selfCol (m ((c : Thread nD τ).loc main_arg1)) := pre_selfCol (W0 m ρ c)
theorem s1_arg0 : W1 m ρ c (Proc.devRef .tc main_arg0) = (m ((c : Thread nD τ).loc main_arg0)) :=
  (keep0_arg0 (W0 m ρ c)).trans rfl
theorem s1_arg2 : W1 m ρ c (Proc.devRef .tc main_arg2) = (m ((c : Thread nD τ).loc main_arg2)) :=
  (keep0_arg2 (W0 m ρ c)).trans rfl
theorem s1_arg3 : W1 m ρ c (Proc.devRef .tc main_arg3) = (m ((c : Thread nD τ).loc main_arg3)) :=
  (keep0_arg3 (W0 m ρ c)).trans rfl
theorem s1_arg4 : W1 m ρ c (Proc.devRef .tc main_arg4) = (m ((c : Thread nD τ).loc main_arg4)) :=
  (keep0_arg4 (W0 m ρ c)).trans rfl
theorem s1_arg5 : W1 m ρ c (Proc.devRef .tc main_arg5) = (m ((c : Thread nD τ).loc main_arg5)) :=
  (keep0_arg5 (W0 m ρ c)).trans rfl
theorem s1_arg6 : W1 m ρ c (Proc.devRef .tc main_arg6) = (m ((c : Thread nD τ).loc main_arg6)) :=
  (keep0_arg6 (W0 m ρ c)).trans rfl
theorem s1_arg7 : W1 m ρ c (Proc.devRef .tc main_arg7) = (m ((c : Thread nD τ).loc main_arg7)) :=
  (keep0_arg7 (W0 m ρ c)).trans rfl
/-! ## After region 0: the first projection -/
theorem s2_v13 : W2 m ρ c (Proc.devRef .tc main_v13) = proj (m ((c : Thread nD τ).loc main_arg0)) (m ((c : Thread nD τ).loc main_arg2)) :=
  (W2_arr m ρ c 2).trans ((Region0.result (V1 m ρ) c).trans (proj_congr (s1_arg0 m ρ c) (s1_arg2 m ρ c)))
theorem s2_v1 : W2 m ρ c (Proc.devRef .tc main_v1) = sources (m ((c : Thread nD τ).loc main_arg1)) :=
  (W2_of_ne m ρ c main_v1 (by decide)).trans (s1_v1 m ρ c)
theorem s2_v3 : W2 m ρ c (Proc.devRef .tc main_v3) = targets (m ((c : Thread nD τ).loc main_arg1)) :=
  (W2_of_ne m ρ c main_v3 (by decide)).trans (s1_v3 m ρ c)
theorem s2_v10 : W2 m ρ c (Proc.devRef .tc main_v10) = invDeg (m ((c : Thread nD τ).loc main_arg1)) :=
  (W2_of_ne m ρ c main_v10 (by decide)).trans (s1_v10 m ρ c)
theorem s2_v12 : W2 m ρ c (Proc.devRef .tc main_v12) = selfCol (m ((c : Thread nD τ).loc main_arg1)) :=
  (W2_of_ne m ρ c main_v12 (by decide)).trans (s1_v12 m ρ c)
theorem s2_arg3 : W2 m ρ c (Proc.devRef .tc main_arg3) = (m ((c : Thread nD τ).loc main_arg3)) :=
  (W2_of_ne m ρ c main_arg3 (by decide)).trans (s1_arg3 m ρ c)
theorem s2_arg4 : W2 m ρ c (Proc.devRef .tc main_arg4) = (m ((c : Thread nD τ).loc main_arg4)) :=
  (W2_of_ne m ρ c main_arg4 (by decide)).trans (s1_arg4 m ρ c)
theorem s2_arg5 : W2 m ρ c (Proc.devRef .tc main_arg5) = (m ((c : Thread nD τ).loc main_arg5)) :=
  (W2_of_ne m ρ c main_arg5 (by decide)).trans (s1_arg5 m ρ c)
theorem s2_arg6 : W2 m ρ c (Proc.devRef .tc main_arg6) = (m ((c : Thread nD τ).loc main_arg6)) :=
  (W2_of_ne m ρ c main_arg6 (by decide)).trans (s1_arg6 m ρ c)
theorem s2_arg7 : W2 m ρ c (Proc.devRef .tc main_arg7) = (m ((c : Thread nD τ).loc main_arg7)) :=
  (W2_of_ne m ρ c main_arg7 (by decide)).trans (s1_arg7 m ρ c)
/-! ## After the second stretch: the first aggregation -/
theorem s3_v41 : W3 m ρ c (Proc.devRef .tc main_v41) = aggregate (sources (m ((c : Thread nD τ).loc main_arg1))) (targets (m ((c : Thread nD τ).loc main_arg1))) (invDeg (m ((c : Thread nD τ).loc main_arg1))) (proj (m ((c : Thread nD τ).loc main_arg0)) (m ((c : Thread nD τ).loc main_arg2))) :=
  (mid_aggregate1 (W2 m ρ c)).trans (aggregate_congr (s2_v1 m ρ c) (s2_v3 m ρ c) (s2_v10 m ρ c) (s2_v13 m ρ c))
theorem s3_v13 : W3 m ρ c (Proc.devRef .tc main_v13) = proj (m ((c : Thread nD τ).loc main_arg0)) (m ((c : Thread nD τ).loc main_arg2)) :=
  (keep1_v13 (W2 m ρ c)).trans (s2_v13 m ρ c)
theorem s3_v12 : W3 m ρ c (Proc.devRef .tc main_v12) = selfCol (m ((c : Thread nD τ).loc main_arg1)) :=
  (keep1_v12 (W2 m ρ c)).trans (s2_v12 m ρ c)
theorem s3_arg3 : W3 m ρ c (Proc.devRef .tc main_arg3) = (m ((c : Thread nD τ).loc main_arg3)) :=
  (keep1_arg3 (W2 m ρ c)).trans (s2_arg3 m ρ c)
theorem s3_v1 : W3 m ρ c (Proc.devRef .tc main_v1) = sources (m ((c : Thread nD τ).loc main_arg1)) :=
  (keep1_v1 (W2 m ρ c)).trans (s2_v1 m ρ c)
theorem s3_v3 : W3 m ρ c (Proc.devRef .tc main_v3) = targets (m ((c : Thread nD τ).loc main_arg1)) :=
  (keep1_v3 (W2 m ρ c)).trans (s2_v3 m ρ c)
theorem s3_v10 : W3 m ρ c (Proc.devRef .tc main_v10) = invDeg (m ((c : Thread nD τ).loc main_arg1)) :=
  (keep1_v10 (W2 m ρ c)).trans (s2_v10 m ρ c)
theorem s3_arg4 : W3 m ρ c (Proc.devRef .tc main_arg4) = (m ((c : Thread nD τ).loc main_arg4)) :=
  (keep1_arg4 (W2 m ρ c)).trans (s2_arg4 m ρ c)
theorem s3_arg5 : W3 m ρ c (Proc.devRef .tc main_arg5) = (m ((c : Thread nD τ).loc main_arg5)) :=
  (keep1_arg5 (W2 m ρ c)).trans (s2_arg5 m ρ c)
theorem s3_arg6 : W3 m ρ c (Proc.devRef .tc main_arg6) = (m ((c : Thread nD τ).loc main_arg6)) :=
  (keep1_arg6 (W2 m ρ c)).trans (s2_arg6 m ρ c)
theorem s3_arg7 : W3 m ρ c (Proc.devRef .tc main_arg7) = (m ((c : Thread nD τ).loc main_arg7)) :=
  (keep1_arg7 (W2 m ρ c)).trans (s2_arg7 m ρ c)
/-! ## After region 1: the first layer's output -/
theorem s4_v42 : W4 m ρ c (Proc.devRef .tc main_v42) = layer (m ((c : Thread nD τ).loc main_arg1)) (m ((c : Thread nD τ).loc main_arg0)) (m ((c : Thread nD τ).loc main_arg2)) (m ((c : Thread nD τ).loc main_arg3)) :=
  (W4_arr m ρ c 4).trans ((Region1.result (V3 m ρ) c).trans (convCol_congr (s3_v41 m ρ c) (s3_v13 m ρ c) (s3_v12 m ρ c) (s3_arg3 m ρ c)))
theorem s4_v12 : W4 m ρ c (Proc.devRef .tc main_v12) = selfCol (m ((c : Thread nD τ).loc main_arg1)) :=
  (W4_arr m ρ c 2).trans ((((dat1 (V3 m ρ) c).arrAt_in 2 rfl _).trans (A_eq1 (V3 m ρ) c 2)).trans (s3_v12 m ρ c))
theorem s4_v1 : W4 m ρ c (Proc.devRef .tc main_v1) = sources (m ((c : Thread nD τ).loc main_arg1)) :=
  (W4_of_ne m ρ c main_v1 (by decide)).trans (s3_v1 m ρ c)
theorem s4_v3 : W4 m ρ c (Proc.devRef .tc main_v3) = targets (m ((c : Thread nD τ).loc main_arg1)) :=
  (W4_of_ne m ρ c main_v3 (by decide)).trans (s3_v3 m ρ c)
theorem s4_v10 : W4 m ρ c (Proc.devRef .tc main_v10) = invDeg (m ((c : Thread nD τ).loc main_arg1)) :=
  (W4_of_ne m ρ c main_v10 (by decide)).trans (s3_v10 m ρ c)
theorem s4_arg4 : W4 m ρ c (Proc.devRef .tc main_arg4) = (m ((c : Thread nD τ).loc main_arg4)) :=
  (W4_of_ne m ρ c main_arg4 (by decide)).trans (s3_arg4 m ρ c)
theorem s4_arg5 : W4 m ρ c (Proc.devRef .tc main_arg5) = (m ((c : Thread nD τ).loc main_arg5)) :=
  (W4_of_ne m ρ c main_arg5 (by decide)).trans (s3_arg5 m ρ c)
theorem s4_arg6 : W4 m ρ c (Proc.devRef .tc main_arg6) = (m ((c : Thread nD τ).loc main_arg6)) :=
  (W4_of_ne m ρ c main_arg6 (by decide)).trans (s3_arg6 m ρ c)
theorem s4_arg7 : W4 m ρ c (Proc.devRef .tc main_arg7) = (m ((c : Thread nD τ).loc main_arg7)) :=
  (W4_of_ne m ρ c main_arg7 (by decide)).trans (s3_arg7 m ρ c)
/-! ## After region 2: the second projection -/
theorem s5_v43 : W5 m ρ c (Proc.devRef .tc main_v43) = proj (layer (m ((c : Thread nD τ).loc main_arg1)) (m ((c : Thread nD τ).loc main_arg0)) (m ((c : Thread nD τ).loc main_arg2)) (m ((c : Thread nD τ).loc main_arg3))) (m ((c : Thread nD τ).loc main_arg4)) :=
  (W5_arr m ρ c 2).trans ((Region2.result (V4 m ρ) c).trans (proj_congr (s4_v42 m ρ c) (s4_arg4 m ρ c)))
theorem s5_v12 : W5 m ρ c (Proc.devRef .tc main_v12) = selfCol (m ((c : Thread nD τ).loc main_arg1)) :=
  (W5_of_ne m ρ c main_v12 (by decide)).trans (s4_v12 m ρ c)
theorem s5_v1 : W5 m ρ c (Proc.devRef .tc main_v1) = sources (m ((c : Thread nD τ).loc main_arg1)) :=
  (W5_of_ne m ρ c main_v1 (by decide)).trans (s4_v1 m ρ c)
theorem s5_v3 : W5 m ρ c (Proc.devRef .tc main_v3) = targets (m ((c : Thread nD τ).loc main_arg1)) :=
  (W5_of_ne m ρ c main_v3 (by decide)).trans (s4_v3 m ρ c)
theorem s5_v10 : W5 m ρ c (Proc.devRef .tc main_v10) = invDeg (m ((c : Thread nD τ).loc main_arg1)) :=
  (W5_of_ne m ρ c main_v10 (by decide)).trans (s4_v10 m ρ c)
theorem s5_arg5 : W5 m ρ c (Proc.devRef .tc main_arg5) = (m ((c : Thread nD τ).loc main_arg5)) :=
  (W5_of_ne m ρ c main_arg5 (by decide)).trans (s4_arg5 m ρ c)
theorem s5_arg6 : W5 m ρ c (Proc.devRef .tc main_arg6) = (m ((c : Thread nD τ).loc main_arg6)) :=
  (W5_of_ne m ρ c main_arg6 (by decide)).trans (s4_arg6 m ρ c)
theorem s5_arg7 : W5 m ρ c (Proc.devRef .tc main_arg7) = (m ((c : Thread nD τ).loc main_arg7)) :=
  (W5_of_ne m ρ c main_arg7 (by decide)).trans (s4_arg7 m ρ c)
/-! ## After the third stretch: the second aggregation -/
theorem s6_v71 : W6 m ρ c (Proc.devRef .tc main_v71) = aggregate (sources (m ((c : Thread nD τ).loc main_arg1))) (targets (m ((c : Thread nD τ).loc main_arg1))) (invDeg (m ((c : Thread nD τ).loc main_arg1))) (proj (layer (m ((c : Thread nD τ).loc main_arg1)) (m ((c : Thread nD τ).loc main_arg0)) (m ((c : Thread nD τ).loc main_arg2)) (m ((c : Thread nD τ).loc main_arg3))) (m ((c : Thread nD τ).loc main_arg4))) :=
  (mid_aggregate3 (W5 m ρ c)).trans (aggregate_congr (s5_v1 m ρ c) (s5_v3 m ρ c) (s5_v10 m ρ c) (s5_v43 m ρ c))
theorem s6_v43 : W6 m ρ c (Proc.devRef .tc main_v43) = proj (layer (m ((c : Thread nD τ).loc main_arg1)) (m ((c : Thread nD τ).loc main_arg0)) (m ((c : Thread nD τ).loc main_arg2)) (m ((c : Thread nD τ).loc main_arg3))) (m ((c : Thread nD τ).loc main_arg4)) :=
  (keep3_v43 (W5 m ρ c)).trans (s5_v43 m ρ c)
theorem s6_v12 : W6 m ρ c (Proc.devRef .tc main_v12) = selfCol (m ((c : Thread nD τ).loc main_arg1)) :=
  (keep3_v12 (W5 m ρ c)).trans (s5_v12 m ρ c)
theorem s6_arg5 : W6 m ρ c (Proc.devRef .tc main_arg5) = (m ((c : Thread nD τ).loc main_arg5)) :=
  (keep3_arg5 (W5 m ρ c)).trans (s5_arg5 m ρ c)
theorem s6_arg6 : W6 m ρ c (Proc.devRef .tc main_arg6) = (m ((c : Thread nD τ).loc main_arg6)) :=
  (keep3_arg6 (W5 m ρ c)).trans (s5_arg6 m ρ c)
theorem s6_arg7 : W6 m ρ c (Proc.devRef .tc main_arg7) = (m ((c : Thread nD τ).loc main_arg7)) :=
  (keep3_arg7 (W5 m ρ c)).trans (s5_arg7 m ρ c)
/-! ## After region 3: the second layer's output -/
theorem s7_v72 : W7 m ρ c (Proc.devRef .tc main_v72) = layer (m ((c : Thread nD τ).loc main_arg1)) (layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5)) :=
  (W7_arr m ρ c 4).trans ((Region3.result (V6 m ρ) c).trans (convCol_congr (s6_v71 m ρ c) (s6_v43 m ρ c) (s6_v12 m ρ c) (s6_arg5 m ρ c)))
theorem s7_arg6 : W7 m ρ c (Proc.devRef .tc main_arg6) = (m ((c : Thread nD τ).loc main_arg6)) :=
  (W7_of_ne m ρ c main_arg6 (by decide)).trans (s6_arg6 m ρ c)
theorem s7_arg7 : W7 m ρ c (Proc.devRef .tc main_arg7) = (m ((c : Thread nD τ).loc main_arg7)) :=
  (W7_of_ne m ρ c main_arg7 (by decide)).trans (s6_arg7 m ρ c)
/-! ## After region 4: the result -/
/-- THE KERNEL PROGRAM'S RESULT: two layers and the head of the arguments. -/
theorem s8_v73 : W8 m ρ c (Proc.devRef .tc main_v73) = head (layer (m ((c : Thread nD τ).loc main_arg1)) (layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)) :=
  (W8_arr m ρ c 3).trans ((Region4.result (V7 m ρ) c).trans (head_congr (s7_v72 m ρ c) (s7_arg6 m ρ c) (s7_arg7 m ρ c)))

end Cert.KernelIdeal.Whole

end
-- ==== Proof.RefValue.lean ====
/-
  The reference program's result, stage by stage, is the same function of the arguments as the kernel
  program's: its host matrix products are the projection Σ_k h(r,k)·W(k,q); its aggregation is the kernel
  program's (the same gathers and scatter-adds of the same edge list); its layer epilogue
  max (agg + m · (invDeg²)[:, None] + b[None, :]) 0, read at an index, is the convolution epilogue with the
  per-node weight invDeg² — which the kernel program carries reshaped as a column; and its last line is the
  linear head.
-/
import proofs.«152866_j45277545234577_1_alg».proof.Proof.Gen.ReferenceIdeal.Read
import proofs.«152866_j45277545234577_1_alg».proof.Proof.HostParts
import proofs.«152866_j45277545234577_1_alg».proof.Proof.KernelValue
import proofs.«152866_j45277545234577_1_alg».proof.Proof.GcnSpec
import proofs.«152866_j45277545234577_1_alg».proof.Proof.LibMatDot
import proofs.«152866_j45277545234577_1_alg».proof.Proof.LibColumn
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Gcn
open Cert.KernelIdeal.Whole (sources targets invDeg aggregate selfCol layer)
open scoped BigOperators

/-! ## The host pieces are the kernel program's -/

theorem sources_eq (ei : IVec S2x1250000 32) : val_main_v1 (F := Ideal) ei = sources ei := rfl
theorem targets_eq (ei : IVec S2x1250000 32) : val_main_v3 (F := Ideal) ei = targets ei := rfl
theorem invDeg_eq (ei : IVec S2x1250000 32) : val_main_v10 (F := Ideal) ei = invDeg ei := rfl

/-- The host's matrix product is the projection. -/
theorem dot_eq_proj (h : FVec Ideal S100000x64 .f32) (w : FVec Ideal S64x64 .f32) :
    Host.dotGeneral (F := Ideal) dot_S100000x64_S64x64_S100000x64_1_0_0_1_n_n none h w = proj h w := by
  funext i
  obtain ⟨r, q, rfl⟩ : ∃ (r : Fin 100000) (q : Fin 64), i = ix2 r q := ⟨i 0, i 1, eq_ix2 i⟩
  have hd : dot_S100000x64_S64x64_S100000x64_1_0_0_1_n_n = Cert.Lib.matDot dot_S100000x64_S64x64_S100000x64_1_0_0_1_n_n_wf := rfl
  rw [hd]
  exact Cert.Lib.dotGeneral_plain_apply dot_S100000x64_S64x64_S100000x64_1_0_0_1_n_n_wf none .single h w r q

/-- The first aggregation. -/
theorem agg1_eq (x : FVec Ideal S100000x64 .f32) (ei : IVec S2x1250000 32) (w1 : FVec Ideal S64x64 .f32) :
    val_main_v39 (F := Ideal) x ei w1 = aggregate (sources ei) (targets ei) (invDeg ei) (val_main_v11 (F := Ideal) x w1) := rfl

/-- The second aggregation. -/
theorem agg2_eq (x : FVec Ideal S100000x64 .f32) (ei : IVec S2x1250000 32) (w1 : FVec Ideal S64x64 .f32)
    (b1 : FVec Ideal S64 .f32) (w2 : FVec Ideal S64x64 .f32) :
    val_main_v77 (F := Ideal) x ei w1 b1 w2
      = aggregate (sources ei) (targets ei) (invDeg ei) (val_main_v49 (F := Ideal) x ei w1 b1 w2) := rfl

/-! ## The layer epilogue and the head, read at an index -/

theorem node_of (r : Fin 100000) (q : Fin 64) : idx_main_v41 (idx_main_v42 (ix2 r q)) = ix1 r :=
  funext fun a => match a with | ⟨0, _⟩ => rfl
theorem chan_of (r : Fin 100000) (q : Fin 64) : idx_main_v45 (idx_main_v46 (ix2 r q)) = ix1 q :=
  funext fun a => match a with | ⟨0, _⟩ => rfl

/-- The epilogue's arithmetic on atoms: the host's operations at the ideal instance are the extended reals' own. -/
theorem epi_atoms (A M I B : EReal) :
    FloatOps.maximumf (F := Ideal) (φ := .f32) (FloatOps.addf (F := Ideal) (φ := .f32) (FloatOps.addf (F := Ideal) (φ := .f32) A
        (FloatOps.mulf (F := Ideal) (φ := .f32) M (FloatOps.mulf (F := Ideal) (φ := .f32) I I))) B) (FloatOps.ofBits (F := Ideal) .f32 0x00000000#32)
      = max (A + M * (I * I) + B) (Ideal.ofBits .f32 0x00000000#32) := rfl

/-- The first layer's epilogue. -/
theorem epi1_eq (x : FVec Ideal S100000x64 .f32) (ei : IVec S2x1250000 32) (w1 : FVec Ideal S64x64 .f32) (b1 : FVec Ideal S64 .f32) :
    val_main_v48 (F := Ideal) x ei w1 b1
      = conv (val_main_v39 (F := Ideal) x ei w1) (val_main_v11 (F := Ideal) x w1)
          (mulf (val_main_v10 (F := Ideal) ei) (val_main_v10 (F := Ideal) ei)) b1 := by
  funext i
  obtain ⟨r, q, rfl⟩ : ∃ (r : Fin 100000) (q : Fin 64), i = ix2 r q := ⟨i 0, i 1, eq_ix2 i⟩
  rw [val_main_v48_apply, val_main_v47_apply, val_main_v44_apply, val_main_v43_apply, val_main_v42_apply,
    val_main_v41_apply, val_main_v40_apply, val_main_v46_apply, val_main_v45_apply, val_main_call0_v0_apply,
    val_main_call0_cst_apply, node_of, chan_of, conv_apply, mulf_apply]
  generalize val_main_v39 (F := Ideal) x ei w1 (ix2 r q) = A
  generalize val_main_v11 (F := Ideal) x w1 (ix2 r q) = M
  generalize val_main_v10 (F := Ideal) ei (ix1 r) = I
  generalize b1 (ix1 q) = B
  exact epi_atoms A M I B

theorem node_of' (r : Fin 100000) (q : Fin 64) : idx_main_v79 (idx_main_v80 (ix2 r q)) = ix1 r :=
  funext fun a => match a with | ⟨0, _⟩ => rfl
theorem chan_of' (r : Fin 100000) (q : Fin 64) : idx_main_v83 (idx_main_v84 (ix2 r q)) = ix1 q :=
  funext fun a => match a with | ⟨0, _⟩ => rfl

/-- The second layer's epilogue. -/
theorem epi2_eq (x : FVec Ideal S100000x64 .f32) (ei : IVec S2x1250000 32) (w1 : FVec Ideal S64x64 .f32) (b1 : FVec Ideal S64 .f32)
    (w2 : FVec Ideal S64x64 .f32) (b2 : FVec Ideal S64 .f32) :
    val_main_v86 (F := Ideal) x ei w1 b1 w2 b2
      = conv (val_main_v77 (F := Ideal) x ei w1 b1 w2) (val_main_v49 (F := Ideal) x ei w1 b1 w2)
          (mulf (val_main_v10 (F := Ideal) ei) (val_main_v10 (F := Ideal) ei)) b2 := by
  funext i
  obtain ⟨r, q, rfl⟩ : ∃ (r : Fin 100000) (q : Fin 64), i = ix2 r q := ⟨i 0, i 1, eq_ix2 i⟩
  rw [val_main_v86_apply, val_main_v85_apply, val_main_v82_apply, val_main_v81_apply, val_main_v80_apply,
    val_main_v79_apply, val_main_v78_apply, val_main_v84_apply, val_main_v83_apply, val_main_call1_v0_apply,
    val_main_call1_cst_apply, node_of', chan_of', conv_apply, mulf_apply]
  generalize val_main_v77 (F := Ideal) x ei w1 b1 w2 (ix2 r q) = A
  generalize val_main_v49 (F := Ideal) x ei w1 b1 w2 (ix2 r q) = M
  generalize val_main_v10 (F := Ideal) ei (ix1 r) = I
  generalize b2 (ix1 q) = B
  exact epi_atoms A M I B

theorem chan_of'' (r : Fin 100000) (q : Fin 64) : idx_main_v88 (idx_main_v89 (ix2 r q)) = ix1 q :=
  funext fun a => match a with | ⟨0, _⟩ => rfl

/-- The last line: the linear head of the second layer's output. -/
theorem head_eq (x : FVec Ideal S100000x64 .f32) (ei : IVec S2x1250000 32) (w1 : FVec Ideal S64x64 .f32) (b1 : FVec Ideal S64 .f32)
    (w2 : FVec Ideal S64x64 .f32) (b2 : FVec Ideal S64 .f32) (wp : FVec Ideal S64x64 .f32) (bp : FVec Ideal S64 .f32) :
    val_main_v90 (F := Ideal) x ei w1 b1 w2 b2 wp bp = head (val_main_v86 (F := Ideal) x ei w1 b1 w2 b2) wp bp := by
  have hp : val_main_v87 (F := Ideal) x ei w1 b1 w2 b2 wp = proj (val_main_v86 (F := Ideal) x ei w1 b1 w2 b2) wp :=
    dot_eq_proj _ _
  funext i
  obtain ⟨r, q, rfl⟩ : ∃ (r : Fin 100000) (q : Fin 64), i = ix2 r q := ⟨i 0, i 1, eq_ix2 i⟩
  rw [val_main_v90_apply, val_main_v89_apply, val_main_v88_apply, chan_of'', hp, head_apply, proj_apply]
  generalize val_main_v86 (F := Ideal) x ei w1 b1 w2 b2 = H
  rfl

/-! ## A layer with the self-loop weight as a column is the layer with it as a vector -/

theorem layer_eq (ei : IVec S2x1250000 32) (h : FVec Ideal S100000x64 .f32) (w : FVec Ideal S64x64 .f32) (b : FVec Ideal S64 .f32) :
    layer ei h w b = conv (aggregate (sources ei) (targets ei) (invDeg ei) (proj h w)) (proj h w) (mulf (invDeg ei) (invDeg ei)) b :=
  convCol_of_column _ _ (mulf (invDeg ei) (invDeg ei)) (selfCol ei) b fun r =>
    Cert.Lib.shapeCast_a_a1_apply (mulf (invDeg ei) (invDeg ei)) Cert.KernelIdeal.Gen.shapeCasts_S100000_S100000x1 r (0 : Fin 1)

/-- THE REFERENCE PROGRAM'S RESULT is the head of two layers of the arguments — the kernel program's function. -/
theorem result_eq (x : FVec Ideal S100000x64 .f32) (ei : IVec S2x1250000 32) (w1 : FVec Ideal S64x64 .f32) (b1 : FVec Ideal S64 .f32)
    (w2 : FVec Ideal S64x64 .f32) (b2 : FVec Ideal S64 .f32) (wp : FVec Ideal S64x64 .f32) (bp : FVec Ideal S64 .f32) :
    val_main_v90 (F := Ideal) x ei w1 b1 w2 b2 wp bp = head (layer ei (layer ei x w1 b1) w2 b2) wp bp := by
  have e11 : val_main_v11 (F := Ideal) x w1 = proj x w1 := dot_eq_proj _ _
  have e48 : val_main_v48 (F := Ideal) x ei w1 b1 = layer ei x w1 b1 := by
    rw [epi1_eq, agg1_eq, invDeg_eq, e11]
    exact (layer_eq ei x w1 b1).symm
  have e49 : val_main_v49 (F := Ideal) x ei w1 b1 w2 = proj (layer ei x w1 b1) w2 :=
    (dot_eq_proj _ _).trans (by rw [e48])
  have e86 : val_main_v86 (F := Ideal) x ei w1 b1 w2 b2 = layer ei (layer ei x w1 b1) w2 b2 := by
    rw [epi2_eq, agg2_eq, invDeg_eq, e49]
    exact (layer_eq ei (layer ei x w1 b1) w2 b2).symm
  rw [head_eq, e86]

end Cert.ReferenceIdeal.RefValue

end
-- ==== Proof.lean ====
/-
  A two-layer graph convolution with a linear head over 100000 nodes, 64 channels and 1250000 edges: the kernel
  program (three row-blocked projections and two fused layer epilogues in ten-point grids, the gathers and
  scatter-adds on the host) against the plain reference.  At the ideal instance the two programs are the SAME
  function of the eight arguments,

      head (layer (layer x W1 b1) W2 b2) Wp bp,
      layer h W b = max (aggregate (h·W) + (h·W) · invDeg² + b) 0,

  with the same edge aggregation and the same degree normalisation on both sides: the narrowing of the matrix
  products' operands is the identity, a blocked product into a zero accumulator is the whole product, and the
  self-loop weight carried as a column is the weight carried as a vector.  No law of the extended reals beyond
  reading each operation at an index is used, so the finiteness precondition is never opened.

  The three frames: the two kernel programs by their generated frame certificates, the reference by its
  generated run with the result dropped.  The idealization rewrote nothing, so it preserves the program trivially.
-/
import proofs.«152866_j45277545234577_1_alg».proof.Defs
import proofs.«152866_j45277545234577_1_alg».proof.Proof.Gen.Kernel
import proofs.«152866_j45277545234577_1_alg».proof.Proof.Gen.Kernel.Frame
import proofs.«152866_j45277545234577_1_alg».proof.Proof.Gen.KernelIdeal
import proofs.«152866_j45277545234577_1_alg».proof.Proof.Gen.KernelIdeal.Frame
import proofs.«152866_j45277545234577_1_alg».proof.Proof.Gen.ReferenceIdeal
import proofs.«152866_j45277545234577_1_alg».proof.Proof.Gen.Pre_finite_inputs
import proofs.«152866_j45277545234577_1_alg».proof.Proof.Gen.ReferenceIdeal.Run
import proofs.«152866_j45277545234577_1_alg».proof.Proof.Gen.ReferenceIdeal.Read
import proofs.«152866_j45277545234577_1_alg».proof.Proof.KernelRun
import proofs.«152866_j45277545234577_1_alg».proof.Proof.KernelValue
import proofs.«152866_j45277545234577_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the head of two layers of the arguments. -/
theorem algebraic : Cert.algebraic_KernelIdeal_ReferenceIdeal := by
  intro m ρ m' ρ' _ hagree
  refine ⟨fun c => Cert.Gcn.head
      (Cert.KernelIdeal.Whole.layer (m ((c.tc : Thread Cert.KernelIdeal.nD Cert.KernelIdeal.τ).loc Cert.KernelIdeal.main_arg1))
        (Cert.KernelIdeal.Whole.layer (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.s8_v73 m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
